-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg13 : FVec F S64x64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x64 .f32) (main_arg12 : FVec F S64 .f32) (main_arg13 : FVec F S64x64 .f32) (main_arg14 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_arg13 : FVec F S64x64 .f32) (main_arg14 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_arg13 : FVec F S64x64 .f32) (main_arg14 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩
abbrev S512x64 : Shape := ⟨2, ![512, 64]⟩
abbrev S50000x1 : Shape := ⟨2, ![50000, 1]⟩

abbrev nBuf : Space → Nat
  | .hbm => 71
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .f32⟩
  | .hbm, ⟨29, _⟩ => ⟨S50000x128, .f32⟩
  | .hbm, ⟨30, _⟩ => ⟨S600000x1, .i32⟩
  | .hbm, ⟨31, _⟩ => ⟨S50000x128, .f32⟩
  | .hbm, ⟨32, _⟩ => ⟨S1x128, .f32⟩
  | .hbm, ⟨33, _⟩ => ⟨S1x128, .f32⟩
  | .hbm, ⟨34, _⟩ => ⟨S50000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x128, .f32⟩
  | .hbm, ⟨44, _⟩ => ⟨S_, .f32⟩
  | .hbm, ⟨45, _⟩ => ⟨S50000x128, .f32⟩
  | .hbm, ⟨46, _⟩ => ⟨S600000x1, .i32⟩
  | .hbm, ⟨47, _⟩ => ⟨S50000x128, .f32⟩
  | .hbm, ⟨48, _⟩ => ⟨S1x128, .f32⟩
  | .hbm, ⟨49, _⟩ => ⟨S1x128, .f32⟩
  | .hbm, ⟨50, _⟩ => ⟨S50000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S_, .f32⟩
  | .hbm, ⟨61, _⟩ => ⟨S50000x128, .f32⟩
  | .hbm, ⟨62, _⟩ => ⟨S600000x1, .i32⟩
  | .hbm, ⟨63, _⟩ => ⟨S50000x128, .f32⟩
  | .hbm, ⟨64, _⟩ => ⟨S1x64, .f32⟩
  | .hbm, ⟨65, _⟩ => ⟨S1x64, .f32⟩
  | .hbm, ⟨66, _⟩ => ⟨S50000x64, .f32⟩
  | .hbm, ⟨67, _⟩ => ⟨S_, .f32⟩
  | .hbm, ⟨68, _⟩ => ⟨S512x64, .f32⟩
  | .hbm, ⟨69, _⟩ => ⟨S50000x1, .i32⟩
  | .hbm, ⟨70, _⟩ => ⟨S512x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  bcast_S_S512x64 : S_.BroadcastsInDim S512x64 (![] : Fin 0 → Fin S512x64.rank)
  bcast_S50000_S50000x1_0 : S50000.BroadcastsInDim S50000x1 (![0] : Fin 1 → Fin S50000x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  scatter_S512x64_S50000x1_S50000x64_1_0_0_1_wf : ScatterDims.WF S512x64 S50000x1 S50000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S50000x64 : Shape := ⟨2, ![50000, 64]⟩
abbrev S1x64 : Shape := ⟨2, ![1, 64]⟩
abbrev S512x64 : Shape := ⟨2, ![512, 64]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .f32⟩
  | .hbm, ⟨29, _⟩ => ⟨S50000x128, .f32⟩
  | .hbm, ⟨30, _⟩ => ⟨S600000x1, .i32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S_, .f32⟩
  | .hbm, ⟨57, _⟩ => ⟨S50000x128, .f32⟩
  | .hbm, ⟨58, _⟩ => ⟨S600000x1, .i32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S_, .i32⟩
  | .hbm, ⟨76, _⟩ => ⟨S600000, .i32⟩
  | .hbm, ⟨77, _⟩ => ⟨S600000, .i1⟩
  | .hbm, ⟨78, _⟩ => ⟨S_, .i32⟩
  | .hbm, ⟨79, _⟩ => ⟨S600000, .i32⟩
  | .hbm, ⟨80, _⟩ => ⟨S600000, .i32⟩
  | .hbm, ⟨81, _⟩ => ⟨S600000, .i32⟩
  | .hbm, ⟨82, _⟩ => ⟨S600000x1, .i32⟩
  | .hbm, ⟨83, _⟩ => ⟨S600000x128, .f32⟩
  | .hbm, ⟨84, _⟩ => ⟨S_, .f32⟩
  | .hbm, ⟨85, _⟩ => ⟨S50000x128, .f32⟩
  | .hbm, ⟨86, _⟩ => ⟨S600000x1, .i32⟩
  | .hbm, ⟨87, _⟩ => ⟨S50000x128, .f32⟩
  | .hbm, ⟨88, _⟩ => ⟨S50000x128, .f32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S50000x64, .f32⟩
  | .hbm, ⟨93, _⟩ => ⟨S_, .f32⟩
  | .hbm, ⟨94, _⟩ => ⟨S50000x64, .f32⟩
  | .hbm, ⟨95, _⟩ => ⟨S50000x64, .f32⟩
  | .hbm, ⟨96, _⟩ => ⟨S50000x64, .f32⟩
  | .hbm, ⟨97, _⟩ => ⟨S1x64, .f32⟩
  | .hbm, ⟨98, _⟩ => ⟨S50000x64, .f32⟩
  | .hbm, ⟨99, _⟩ => ⟨S50000x64, .f32⟩
  | .hbm, ⟨100, _⟩ => ⟨S_, .f32⟩
  | .hbm, ⟨101, _⟩ => ⟨S512x64, .f32⟩
  | .hbm, ⟨102, _⟩ => ⟨S50000x1, .i32⟩
  | .hbm, ⟨103, _⟩ => ⟨S512x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_c_3 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf

class Facts : Prop extends Facts₀ where

variable [Facts]
-- ==== Proof.KernelRun.lean ====
/-
  The run of the idealized kernel program with its result NAMED.

  The program is seven segments: four stretches of host operations and three pipelined regions between them.  The
  contents of every buffer at each segment boundary are a fold from the launch memory (`Gen.W0` … `Gen.W7`): a stretch
  applies its operations, a region replaces its arrays by what its write-backs leave.  Every weakly fair execution
  terminates without a fault, and in its final state every buffer that outlives the regions holds the last boundary's
  contents `Gen.W7`; in particular the result buffer does, and each argument array holds what it held at launch.
-/
import proofs.«106106_j90744069030484_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and every buffer that outlives the regions ends at the last boundary's contents. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The same run with the result buffer and the fifteen argument arrays read off. -/
theorem run_named : θ_run defs (onTc (τ := τ) (main (F := F))) ⟨m, fun _ => 0, ρ⟩ (fun r => ∀ c : Dev nD,
      r.2.mem ((c.tc : Thread nD τ).loc main_v45) = W7 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v45 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c)⟩)
    (run_held m ρ)

end Cert.KernelIdeal.Named

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LibHostMatDot.lean ====
/-
  The host's matrix product of two rank-2 operands, `x · y`, read at an entry.

  For dimension numbers `d` over operands of shapes [M, K] and [K, N] and a result of shape [M, N] whose one
  contracted axis is the second of the left operand and the first of the right — given as the four coordinate
  facts of `d`'s operand index maps — a host `dot_general` at the ideal instance is, at entry (p, q),

      Σ_{k < K} lhs[p, k] · rhs[k, q],

  the same sum a matrix unit's product into the zero accumulator reads as.  The contraction's index type is
  re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- The host's `x · y` at entry (p, q): the sum over the shared axis of the products of row `p` of the left operand
    and column `q` of the right. The hypotheses say where the record's operand index maps read: the left operand
    at (row of the entry, contraction position), the right at (contraction position, column of the entry). -/
theorem host_mat_dot {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LibBcastInDim.lean ====
/-
  A `broadcast_in_dim` of small shapes read at an index given by coordinates: a scalar spread over any shape; a
  length-`a` vector set up as the column `[a, 1]`; a column `[a, 1]` repeated along the rows to `[a, b]`; a length-`b`
  vector set up as the row `[1, b]`; a row `[1, b]` repeated down the columns to `[a, b]`. Each reads the operand at the
  coordinates the result's axes hand down, and at `0` on the operand's unit axes.
-/
import Idealize.ShloMosaic.Lib.Pipeline.Value
import Idealize.ShloMosaic.Lib.ValueIdx

namespace Idealize.ShloMosaic.ValueIdx

open Idealize.ShloMosaic

variable {α : Type}

/-- A scalar spread over a shape reads the scalar everywhere. -/
theorem bcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A length-`a` vector as the column `[a, 1]`: at `(i, z)` it reads the vector at `i`. -/
theorem bcastInDim_a_a1_apply {a : ℕ} (h : (⟨1, ![a]⟩ : Shape).BroadcastsInDim ⟨2, ![a, 1]⟩ (![0] : Fin 1 → Fin 2))
    (x : (⟨1, ![a]⟩ : Shape).Idx → α) (i : Fin a) (z : Fin 1) :
    broadcastInDim ⟨2, ![a, 1]⟩ (![0] : Fin 1 → Fin 2) h x (ix2 i z) = x (ix1 i) := by
  refine broadcastInDim_apply _ h x (ix2 i z) (ix1 i) fun ax => ?_
  match ax with
  | ⟨0, _⟩ =>
    show i.val = if a = 1 then 0 else i.val
    split
    · have := i.isLt; omega
    · rfl

/-- A column `[a, 1]` repeated to `[a, b]`: at `(i, j)` it reads the column at `(i, 0)`. -/
theorem bcastInDim_a1_ab_apply {a b : ℕ}
    (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ (![0, 1] : Fin 2 → Fin 2) h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A length-`b` vector as the row `[1, b]`: at `(z, j)` it reads the vector at `j`. -/
theorem bcastInDim_b_1b_apply {b : ℕ} (h : (⟨1, ![b]⟩ : Shape).BroadcastsInDim ⟨2, ![1, b]⟩ (![1] : Fin 1 → Fin 2))
    (x : (⟨1, ![b]⟩ : Shape).Idx → α) (z : Fin 1) (j : Fin b) :
    broadcastInDim ⟨2, ![1, b]⟩ (![1] : Fin 1 → Fin 2) h x (ix2 z j) = x (ix1 j) := by
  refine broadcastInDim_apply _ h x (ix2 z j) (ix1 j) fun ax => ?_
  match ax with
  | ⟨0, _⟩ =>
    show j.val = if b = 1 then 0 else j.val
    split
    · have := j.isLt; omega
    · rfl

/-- A row `[1, b]` repeated to `[a, b]`: at `(i, j)` it reads the row at `(0, j)`. -/
theorem bcastInDim_1b_ab_apply {a b : ℕ}
    (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ (![0, 1] : Fin 2 → Fin 2) h x (ix2 i j) = x (ix2 (0 : Fin 1) j) := by
  refine broadcastInDim_apply _ h x (ix2 i j) (ix2 (0 : Fin 1) j) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl

end Idealize.ShloMosaic.ValueIdx
-- ==== Proof.LibDense.lean ====
/-
  A dense layer's arithmetic read at an entry, on the extended reals.

  The matrix unit's form: the operands narrowed to a shorter float format (the identity on extended reals), their
  product `x · w` accumulated from zero, and a one-row matrix `b` repeated down the rows and added: at entry (p, q)

      (Σ_{k < K} x[p, k] · w[k, q]) + b[0, q].

  The host's form: `dot_general` of the same operands plus a length-`N` vector set up as a row and repeated down the
  rows reads, at the same entry, (Σ_{k < K} x[p, k] · w[k, q]) + b[q].  A zero row leaves the product alone.

  The leaky rectifier `x ↦ if x ≥ 0 then x else c · x` is pointwise, so it is the same function of either form.
-/
import Idealize.ShloMosaic.PureOps.Ideal.Laws
import Idealize.ShloMosaic.Lib.ValueIdx
import Idealize.ShloMosaic.Lib.ValueLayout
import Idealize.ShloMosaic.Lib.Pipeline.Value
import proofs.«106106_j90744069030484_1_alg».proof.Proof.LibMatDot
import proofs.«106106_j90744069030484_1_alg».proof.Proof.LibHostMatDot
import proofs.«106106_j90744069030484_1_alg».proof.Proof.LibBcastInDim

noncomputable section

open scoped BigOperators

namespace Idealize.ShloMosaic.ValueIdx

open Idealize.ShloMosaic

/-- The matrix unit's dense layer at entry (p, q): the row-by-column sum plus the bias row's entry. -/
theorem matmul_bias_apply {R K N : Nat} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (c : d.contr.Idx), (d.lhsIdx j c 0).val = (j 0).val)
    (hl1 : ∀ (j : (⟨2, ![R, N]⟩ : Shape).Idx) (c : d.contr.Idx), (d.lhsIdx j c 1).val = (c ⟨0, by omega⟩).val)
    (hr0 : ∀ (j : (⟨2, ![R, N]⟩ : Shape).Idx) (c : d.contr.Idx), (d.rhsIdx j c 0).val = (c ⟨0, by omega⟩).val)
    (hr1 : ∀ (j : (⟨2, ![R, N]⟩ : Shape).Idx) (c : d.contr.Idx), (d.rhsIdx j c 1).val = (j 1).val)
    (x : FVec Ideal ⟨2, ![R, K]⟩ .f32) (w : FVec Ideal ⟨2, ![K, N]⟩ .f32) (b : FVec Ideal ⟨2, ![1, N]⟩ .f32)
    (hx : FTy.bf16.bits < FTy.f32.bits)
    (hb : (⟨2, ![1, N]⟩ : Shape).Broadcasts ⟨2, ![R, N]⟩) (p : Fin R) (q : Fin N) :
    addf (matmul d none (truncf .bf16 x hx) (truncf .bf16 w hx) (constant (F := Ideal) ⟨2, ![R, N]⟩ .f32 0x00000000#32))
        (broadcastTo ⟨2, ![R, N]⟩ b hb) (ix2 p q)
      = (∑ k : Fin K, x (ix2 p k) * w (ix2 k q)) + b (ix2 (0 : Fin 1) q) := by
  show matmul d none (truncf .bf16 x hx) (truncf .bf16 w hx) (constant (F := Ideal) ⟨2, ![R, N]⟩ .f32 0x00000000#32) (ix2 p q)
      + broadcastTo ⟨2, ![R, N]⟩ b hb (ix2 p q) = _
  rw [broadcastTo_1b_ab_apply]
  refine congrArg (· + b (ix2 (0 : Fin 1) q)) ?_
  exact mat_dot_zero d none hr hs hl0 hl1 hr0 hr1 (truncf .bf16 x hx) (truncf .bf16 w hx) p q

/-- The host's dense layer at entry (p, q): the row-by-column sum plus the bias vector's entry. -/
theorem host_dot_bias_apply {R K N : Nat} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (c : d.contr.Idx), (d.lhsIdx j c 0).val = (j 0).val)
    (hl1 : ∀ (j : (⟨2, ![R, N]⟩ : Shape).Idx) (c : d.contr.Idx), (d.lhsIdx j c 1).val = (c ⟨0, by omega⟩).val)
    (hr0 : ∀ (j : (⟨2, ![R, N]⟩ : Shape).Idx) (c : d.contr.Idx), (d.rhsIdx j c 0).val = (c ⟨0, by omega⟩).val)
    (hr1 : ∀ (j : (⟨2, ![R, N]⟩ : Shape).Idx) (c : d.contr.Idx), (d.rhsIdx j c 1).val = (j 1).val)
    (x : FVec Ideal ⟨2, ![R, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (p : Fin R) (q : Fin N) :
    addf (Host.dotGeneral d none x w)
        (broadcastInDim ⟨2, ![R, N]⟩ ![0, 1] h2 (broadcastInDim ⟨2, ![1, N]⟩ ![1] h1 b)) (ix2 p q)
      = (∑ k : Fin K, x (ix2 p k) * w (ix2 k q)) + b (ix1 q) := by
  show Host.dotGeneral d none x w (ix2 p q)
      + broadcastInDim ⟨2, ![R, N]⟩ ![0, 1] h2 (broadcastInDim ⟨2, ![1, N]⟩ ![1] h1 b) (ix2 p q) = _
  rw [bcastInDim_1b_ab_apply, bcastInDim_b_1b_apply, host_mat_dot d none hr hs hl0 hl1 hr0 hr1 x w p q]

/-- The leaky rectifier on one extended real: `x` where `x ≥ z`, else `c · x`, the threshold `z` and the slope `c` given by
    their 32-bit float words (the programs compare against `0` and scale by the float nearest `0.01`). -/
def leaky (z c : BitVec 32) (x : Ideal .f32) : Ideal .f32 :=
  Scalar.select (FloatOps.cmpf (F := Ideal) .oge x (FloatOps.ofBits (F := Ideal) .f32 z)) x
    (FloatOps.mulf (F := Ideal) (FloatOps.ofBits (F := Ideal) .f32 c) x)

/-- A dense layer as one function: entry (p, q) is row `p` of `x` against column `q` of `w`, plus entry `q` of the
    one-row matrix `b`. -/
def denseRow {R K N : Nat} (x : (⟨2, ![R, K]⟩ : Shape).Idx → Ideal .f32) (w : (⟨2, ![K, N]⟩ : Shape).Idx → Ideal .f32)
    (b : (⟨2, ![1, N]⟩ : Shape).Idx → Ideal .f32) : (⟨2, ![R, N]⟩ : Shape).Idx → Ideal .f32 :=
  fun i => (∑ k : Fin K, x (ix2 (i 0) k) * w (ix2 k (i 1))) + b (ix2 (0 : Fin 1) (i 1))

/-- The matrix unit's dense layer IS `denseRow`. -/
theorem matmul_bias_eq {R K N : Nat} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (c : d.contr.Idx), (d.lhsIdx j c 0).val = (j 0).val)
    (hl1 : ∀ (j : (⟨2, ![R, N]⟩ : Shape).Idx) (c : d.contr.Idx), (d.lhsIdx j c 1).val = (c ⟨0, by omega⟩).val)
    (hr0 : ∀ (j : (⟨2, ![R, N]⟩ : Shape).Idx) (c : d.contr.Idx), (d.rhsIdx j c 0).val = (c ⟨0, by omega⟩).val)
    (hr1 : ∀ (j : (⟨2, ![R, N]⟩ : Shape).Idx) (c : d.contr.Idx), (d.rhsIdx j c 1).val = (j 1).val)
    (x : FVec Ideal ⟨2, ![R, K]⟩ .f32) (w : FVec Ideal ⟨2, ![K, N]⟩ .f32) (b : FVec Ideal ⟨2, ![1, N]⟩ .f32)
    (hx : FTy.bf16.bits < FTy.f32.bits) (hb : (⟨2, ![1, N]⟩ : Shape).Broadcasts ⟨2, ![R, N]⟩) :
    addf (matmul d none (truncf .bf16 x hx) (truncf .bf16 w hx) (constant (F := Ideal) ⟨2, ![R, N]⟩ .f32 0x00000000#32))
        (broadcastTo ⟨2, ![R, N]⟩ b hb) = denseRow x w b := by
  funext i
  obtain ⟨p, q, rfl⟩ : ∃ (p : Fin R) (q : Fin N), i = ix2 p q := ⟨i 0, i 1, eq_ix2 i⟩
  exact matmul_bias_apply d hr hs hl0 hl1 hr0 hr1 x w b hx hb p q

/-- The host's dense layer IS `denseRow` with the bias vector set up as a row. -/
theorem host_dot_bias_eq {R K N : Nat} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (c : d.contr.Idx), (d.lhsIdx j c 0).val = (j 0).val)
    (hl1 : ∀ (j : (⟨2, ![R, N]⟩ : Shape).Idx) (c : d.contr.Idx), (d.lhsIdx j c 1).val = (c ⟨0, by omega⟩).val)
    (hr0 : ∀ (j : (⟨2, ![R, N]⟩ : Shape).Idx) (c : d.contr.Idx), (d.rhsIdx j c 0).val = (c ⟨0, by omega⟩).val)
    (hr1 : ∀ (j : (⟨2, ![R, N]⟩ : Shape).Idx) (c : d.contr.Idx), (d.rhsIdx j c 1).val = (j 1).val)
    (x : FVec Ideal ⟨2, ![R, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (hc : (⟨1, ![N]⟩ : Shape).ShapeCasts ⟨2, ![1, N]⟩) :
    addf (Host.dotGeneral d none x w)
        (broadcastInDim ⟨2, ![R, N]⟩ ![0, 1] h2 (broadcastInDim ⟨2, ![1, N]⟩ ![1] h1 b))
      = denseRow x w (shapeCast ⟨2, ![1, N]⟩ b hc) := by
  funext i
  obtain ⟨p, q, rfl⟩ : ∃ (p : Fin R) (q : Fin N), i = ix2 p q := ⟨i 0, i 1, eq_ix2 i⟩
  refine (host_dot_bias_apply d hr hs hl0 hl1 hr0 hr1 x w b h1 h2 p q).trans ?_
  show _ = (∑ k : Fin K, x (ix2 p k) * w (ix2 k q)) + shapeCast ⟨2, ![1, N]⟩ b hc (ix2 (0 : Fin 1) q)
  rw [shapeCast_a_1a_apply]

/-- The host's bare matrix product IS `denseRow` with any one-row matrix of zeros. -/
theorem host_dot_eq {R K N : Nat} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (c : d.contr.Idx), (d.lhsIdx j c 0).val = (j 0).val)
    (hl1 : ∀ (j : (⟨2, ![R, N]⟩ : Shape).Idx) (c : d.contr.Idx), (d.lhsIdx j c 1).val = (c ⟨0, by omega⟩).val)
    (hr0 : ∀ (j : (⟨2, ![R, N]⟩ : Shape).Idx) (c : d.contr.Idx), (d.rhsIdx j c 0).val = (c ⟨0, by omega⟩).val)
    (hr1 : ∀ (j : (⟨2, ![R, N]⟩ : Shape).Idx) (c : d.contr.Idx), (d.rhsIdx j c 1).val = (j 1).val)
    (x : FVec Ideal ⟨2, ![R, K]⟩ .f32) (w : FVec Ideal ⟨2, ![K, N]⟩ .f32)
    (b : (⟨2, ![1, N]⟩ : Shape).Idx → Ideal .f32) (hb : ∀ j, b j = (0 : EReal)) :
    Host.dotGeneral d none x w = denseRow x w b := by
  funext i
  obtain ⟨p, q, rfl⟩ : ∃ (p : Fin R) (q : Fin N), i = ix2 p q := ⟨i 0, i 1, eq_ix2 i⟩
  refine (host_mat_dot d none hr hs hl0 hl1 hr0 hr1 x w p q).trans ?_
  show _ = (∑ k : Fin K, x (ix2 p k) * w (ix2 k q)) + b (ix2 (0 : Fin 1) q)
  rw [hb, add_zero]

/-- The matrix unit's dense layer as one vector expression: narrowed operands, product from zero, bias row spread down
    the rows (the row first passed through an identity reshape, as the kernels print it). -/
def mxuDense {R K N : Nat} (d : DotDims ⟨2, ![R, K]⟩ ⟨2, ![K, N]⟩ ⟨2, ![R, N]⟩)
    (x : FVec Ideal ⟨2, ![R, K]⟩ .f32) (w : FVec Ideal ⟨2, ![K, N]⟩ .f32) (b : FVec Ideal ⟨2, ![1, N]⟩ .f32)
    (hx : FTy.bf16.bits < FTy.f32.bits) (hs : (⟨2, ![1, N]⟩ : Shape).ShapeCasts ⟨2, ![1, N]⟩)
    (hb : (⟨2, ![1, N]⟩ : Shape).Broadcasts ⟨2, ![R, N]⟩) : FVec Ideal ⟨2, ![R, N]⟩ .f32 :=
  addf (matmul d none (truncf .bf16 x hx) (truncf .bf16 w hx) (constant (F := Ideal) ⟨2, ![R, N]⟩ .f32 0x00000000#32))
    (broadcastTo ⟨2, ![R, N]⟩ (shapeCast ⟨2, ![1, N]⟩ b hs) hb)

theorem mxuDense_eq {R K N : Nat} (d : DotDims ⟨2, ![R, K]⟩ ⟨2, ![K, N]⟩ ⟨2, ![R, N]⟩)
    (hr : d.contr.rank = 1) (hs' : d.contr.size ⟨0, by omega⟩ = K)
    (hl0 : ∀ (j : (⟨2, ![R, N]⟩ : Shape).Idx) (c : d.contr.Idx), (d.lhsIdx j c 0).val = (j 0).val)
    (hl1 : ∀ (j : (⟨2, ![R, N]⟩ : Shape).Idx) (c : d.contr.Idx), (d.lhsIdx j c 1).val = (c ⟨0, by omega⟩).val)
    (hr0 : ∀ (j : (⟨2, ![R, N]⟩ : Shape).Idx) (c : d.contr.Idx), (d.rhsIdx j c 0).val = (c ⟨0, by omega⟩).val)
    (hr1 : ∀ (j : (⟨2, ![R, N]⟩ : Shape).Idx) (c : d.contr.Idx), (d.rhsIdx j c 1).val = (j 1).val)
    (x : FVec Ideal ⟨2, ![R, K]⟩ .f32) (w : FVec Ideal ⟨2, ![K, N]⟩ .f32) (b : FVec Ideal ⟨2, ![1, N]⟩ .f32)
    (hx : FTy.bf16.bits < FTy.f32.bits) (hs : (⟨2, ![1, N]⟩ : Shape).ShapeCasts ⟨2, ![1, N]⟩)
    (hb : (⟨2, ![1, N]⟩ : Shape).Broadcasts ⟨2, ![R, N]⟩) :
    mxuDense d x w b hx hs hb = denseRow x w b := by
  unfold mxuDense
  rw [shapeCast_self]
  exact matmul_bias_eq d hr hs' hl0 hl1 hr0 hr1 x w b hx hb

/-- The leaky rectifier over a whole vector, as the programs print it: compare with a splat threshold, select between the
    vector and the splat slope times the vector. -/
def leakyVec (z c : BitVec 32) (S : Shape) (v : FVec Ideal S .f32) : FVec Ideal S .f32 :=
  select (cmpf .oge v (broadcast S (FloatOps.ofBits (F := Ideal) .f32 z))) v (mulf (broadcast S (FloatOps.ofBits (F := Ideal) .f32 c)) v)

theorem leakyVec_apply (z c : BitVec 32) (S : Shape) (v : FVec Ideal S .f32) (i : S.Idx) :
    leakyVec z c S v i = leaky z c (v i) := rfl

end Idealize.ShloMosaic.ValueIdx

end
-- ==== Proof.GinLayer.lean ====
/-
  One graph-isomorphism layer on the extended reals, as one function of whole arrays.

  A layer takes the node features `x` and their neighbour sums `a` (both [R, K]), adds them entry by entry, sends each
  row through a dense layer (`w1` : [K, H], bias row `b1` : [1, H]), replaces every entry by the larger of itself and zero,
  and sends each row through a second dense layer (`w2` : [H, N], bias row `b2` : [1, N]):

      hidden[p, h] = max (Σ_k (x[p, k] + a[p, k]) · w1[k, h] + b1[0, h]) 0
      layer[p, q]  = Σ_h hidden[p, h] · w2[h, q] + b2[0, q]

  and the first two layers of the network rectify the result once more.  Row `p` of the result depends on `x` and `a`
  only through their rows `p`, so a block of rows of the result is the same function of the same block of rows of the
  operands: this is what lets a kernel that works through the rows block by block meet a program that works on the
  whole arrays.
-/
import proofs.«106106_j90744069030484_1_alg».proof.Proof.LibDense

noncomputable section

open scoped BigOperators

namespace Cert.Gin

open Idealize.ShloMosaic Idealize.ShloMosaic.ValueIdx

/-- The larger of an extended real and the float word zero (the word is never evaluated: both programs spell it). -/
def pos (y : Ideal .f32) : Ideal .f32 :=
  FloatOps.maximumf (F := Ideal) y (FloatOps.ofBits (F := Ideal) .f32 0x00000000#32)

/-- Entry-by-entry sum of the features and the neighbour sums. -/
def plus {S : Shape} (x a : S.Idx → Ideal .f32) : S.Idx → Ideal .f32 := fun j => FloatOps.addf (F := Ideal) (x j) (a j)

/-- The rectified first dense layer of the summed rows. -/
def hidden {R K H : Nat} (x a : (⟨2, ![R, K]⟩ : Shape).Idx → Ideal .f32) (w1 : (⟨2, ![K, H]⟩ : Shape).Idx → Ideal .f32)
    (b1 : (⟨2, ![1, H]⟩ : Shape).Idx → Ideal .f32) : (⟨2, ![R, H]⟩ : Shape).Idx → Ideal .f32 :=
  fun i => pos (denseRow (plus x a) w1 b1 i)

/-- One layer without the closing rectifier. -/
def layer {R K H N : Nat} (x a : (⟨2, ![R, K]⟩ : Shape).Idx → Ideal .f32) (w1 : (⟨2, ![K, H]⟩ : Shape).Idx → Ideal .f32)
    (b1 : (⟨2, ![1, H]⟩ : Shape).Idx → Ideal .f32) (w2 : (⟨2, ![H, N]⟩ : Shape).Idx → Ideal .f32)
    (b2 : (⟨2, ![1, N]⟩ : Shape).Idx → Ideal .f32) : (⟨2, ![R, N]⟩ : Shape).Idx → Ideal .f32 :=
  denseRow (hidden x a w1 b1) w2 b2

/-- One layer with the closing rectifier. -/
def layerPos {R K H N : Nat} (x a : (⟨2, ![R, K]⟩ : Shape).Idx → Ideal .f32) (w1 : (⟨2, ![K, H]⟩ : Shape).Idx → Ideal .f32)
    (b1 : (⟨2, ![1, H]⟩ : Shape).Idx → Ideal .f32) (w2 : (⟨2, ![H, N]⟩ : Shape).Idx → Ideal .f32)
    (b2 : (⟨2, ![1, N]⟩ : Shape).Idx → Ideal .f32) : (⟨2, ![R, N]⟩ : Shape).Idx → Ideal .f32 :=
  fun i => pos (layer x a w1 b1 w2 b2 i)

/-- A dense layer's row `p` reads its left operand only along row `p`. -/
theorem denseRow_rows {R R' K N : Nat} (x : (⟨2, ![R, K]⟩ : Shape).Idx → Ideal .f32)
    (x' : (⟨2, ![R', K]⟩ : Shape).Idx → Ideal .f32) (w : (⟨2, ![K, N]⟩ : Shape).Idx → Ideal .f32)
    (b : (⟨2, ![1, N]⟩ : Shape).Idx → Ideal .f32) (p : Fin R) (p' : Fin R') (q : Fin N)
    (h : ∀ k : Fin K, x (ix2 p k) = x' (ix2 p' k)) :
    denseRow x w b (ix2 p q) = denseRow x' w b (ix2 p' q) := by
  show (∑ k : Fin K, x (ix2 p k) * w (ix2 k q)) + b (ix2 (0 : Fin 1) q)
      = (∑ k : Fin K, x' (ix2 p' k) * w (ix2 k q)) + b (ix2 (0 : Fin 1) q)
  refine congrArg (· + b (ix2 (0 : Fin 1) q)) (Finset.sum_congr rfl fun k _ => ?_)
  rw [h k]

/-- The hidden rows likewise. -/
theorem hidden_rows {R R' K H : Nat} (x a : (⟨2, ![R, K]⟩ : Shape).Idx → Ideal .f32)
    (x' a' : (⟨2, ![R', K]⟩ : Shape).Idx → Ideal .f32) (w1 : (⟨2, ![K, H]⟩ : Shape).Idx → Ideal .f32)
    (b1 : (⟨2, ![1, H]⟩ : Shape).Idx → Ideal .f32) (p : Fin R) (p' : Fin R') (q : Fin H)
    (hx : ∀ k : Fin K, x (ix2 p k) = x' (ix2 p' k)) (ha : ∀ k : Fin K, a (ix2 p k) = a' (ix2 p' k)) :
    hidden x a w1 b1 (ix2 p q) = hidden x' a' w1 b1 (ix2 p' q) := by
  unfold hidden
  refine congrArg pos (denseRow_rows _ _ w1 b1 p p' q fun k => ?_)
  show FloatOps.addf (F := Ideal) (x (ix2 p k)) (a (ix2 p k)) = FloatOps.addf (F := Ideal) (x' (ix2 p' k)) (a' (ix2 p' k))
  rw [hx k, ha k]

/-- ROW LOCALITY of a layer: if row `p` of `(x, a)` is row `p'` of `(x', a')`, entry (p, q) of the layer of the first pair is
    entry (p', q) of the layer of the second. -/
theorem layer_rows {R R' K H N : Nat} (x a : (⟨2, ![R, K]⟩ : Shape).Idx → Ideal .f32)
    (x' a' : (⟨2, ![R', K]⟩ : Shape).Idx → Ideal .f32) (w1 : (⟨2, ![K, H]⟩ : Shape).Idx → Ideal .f32)
    (b1 : (⟨2, ![1, H]⟩ : Shape).Idx → Ideal .f32) (w2 : (⟨2, ![H, N]⟩ : Shape).Idx → Ideal .f32)
    (b2 : (⟨2, ![1, N]⟩ : Shape).Idx → Ideal .f32) (p : Fin R) (p' : Fin R') (q : Fin N)
    (hx : ∀ k : Fin K, x (ix2 p k) = x' (ix2 p' k)) (ha : ∀ k : Fin K, a (ix2 p k) = a' (ix2 p' k)) :
    layer x a w1 b1 w2 b2 (ix2 p q) = layer x' a' w1 b1 w2 b2 (ix2 p' q) :=
  denseRow_rows _ _ w2 b2 p p' q fun k => hidden_rows x a x' a' w1 b1 p p' k hx ha

theorem layerPos_rows {R R' K H N : Nat} (x a : (⟨2, ![R, K]⟩ : Shape).Idx → Ideal .f32)
    (x' a' : (⟨2, ![R', K]⟩ : Shape).Idx → Ideal .f32) (w1 : (⟨2, ![K, H]⟩ : Shape).Idx → Ideal .f32)
    (b1 : (⟨2, ![1, H]⟩ : Shape).Idx → Ideal .f32) (w2 : (⟨2, ![H, N]⟩ : Shape).Idx → Ideal .f32)
    (b2 : (⟨2, ![1, N]⟩ : Shape).Idx → Ideal .f32) (p : Fin R) (p' : Fin R') (q : Fin N)
    (hx : ∀ k : Fin K, x (ix2 p k) = x' (ix2 p' k)) (ha : ∀ k : Fin K, a (ix2 p k) = a' (ix2 p' k)) :
    layerPos x a w1 b1 w2 b2 (ix2 p q) = layerPos x' a' w1 b1 w2 b2 (ix2 p' q) :=
  congrArg pos (layer_rows x a x' a' w1 b1 w2 b2 p p' q hx ha)

end Cert.Gin

end
-- ==== Proof.RefValue.lean ====
/-
  The reference program's result as one function of its fifteen arguments.

  The reference runs three graph layers on whole arrays and then pools.  Each layer adds, to every node's feature row,
  the sum of the rows of the nodes that have an edge into it (the neighbour sums), and sends the summed rows through two
  dense layers with a rectifier between them; the first two layers rectify once more at the end, the third does not.
  Pooling adds every node's row of the last layer's output into the row of the graph the node belongs to.

  Read on the extended reals, a host dense layer (a matrix product plus a bias vector set up as a row and repeated down
  the rows) is the function `denseRow`, and a maximum against an array of zeros is the pointwise function `pos`.  So each
  layer of the program is the specification's `layerPos` / `layer` of the layer's input, its neighbour sums, the two
  weight matrices and the two bias rows; the neighbour sums and the pooling stay whole host operations, carried as the
  opaque functions `agg` and `pool` of their operands.
-/
import proofs.«106106_j90744069030484_1_alg».proof.Proof.Gen.ReferenceIdeal.Read
import proofs.«106106_j90744069030484_1_alg».proof.Proof.GinLayer

set_option maxRecDepth 16384

noncomputable section

namespace Cert.ReferenceIdeal.RefValue

open Cert.ReferenceIdeal Cert.ReferenceIdeal.Gen Cert.ReferenceIdeal.Read Idealize.ShloMosaic Idealize.ShloMosaic.StableHlo
  Idealize.ShloMosaic.ValueIdx

/-- An array of 32-bit floats, resp. of 32-bit integers, of a given shape, on the extended reals. -/
local macro "F32[" S:term "]" : term => `((⟨$S, .f32⟩ : BufTy).Contents (Elt Ideal))
local macro "I32[" S:term "]" : term => `((⟨$S, .i32⟩ : BufTy).Contents (Elt Ideal))

/-- A length-128 (length-64) vector and the one-row matrix with the same entries hold equally many. -/
theorem shapeCasts_S128_S1x128 : S128.ShapeCasts S1x128 := by decide
theorem shapeCasts_S64_S1x64 : S64.ShapeCasts S1x64 := by decide

/-- The edges' source node: row 0 of the [2, E] table as a length-E vector. -/
def src (e : I32[S2x600000]) : I32[S600000] :=
  shapeCast _ (extractStridedSlice S1x600000 ![0, 0] e slices_S2x600000_S1x600000_0_0) shapeCasts_S1x600000_S600000

/-- The edges' destination node: row 1 of the [2, E] table as a length-E vector. -/
def dst (e : I32[S2x600000]) : I32[S600000] :=
  shapeCast _ (extractStridedSlice S1x600000 ![1, 0] e slices_S2x600000_S1x600000_1_0) shapeCasts_S1x600000_S600000

/-- A negative node index counts from the end: the program adds the number of nodes to it. -/
def wrap (s : I32[S600000]) : I32[S600000] :=
  select (cmpi .slt s (broadcastInDim S600000 ![] bcast_S_S600000 (constantI S_ 32 0#32)))
    (addi s (broadcastInDim S600000 ![] bcast_S_S600000 (constantI S_ 32 50000#32))) s

/-- Neighbour sums: every edge adds its source node's row of `h` into its destination node's row of a zero array. -/
def agg (h : F32[S50000x128]) (e : I32[S2x600000]) : F32[S50000x128] :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 (dst e))
    (Host.gather gather_S50000x128_S600000x1_S600000x128_1_0_n_n_0_1_1128 h
      (broadcastInDim S600000x1 ![0] bcast_S600000_S600000x1_0 (wrap (src e))))

/-- Pooling: every node adds its row of `h` into its graph's row of a zero array. -/
def pool (b : I32[S50000]) (h : F32[S50000x64]) : F32[S512x64] :=
  Host.scatterAdd scatter_S512x64_S50000x1_S50000x64_1_0_0_1
    (broadcastInDim S512x64 ![] bcast_S_S512x64 (constant (F := Ideal) S_ .f32 0x00000000#32))
    (broadcastInDim S50000x1 ![0] bcast_S50000_S50000x1_0 b) h

/-- A bias vector as a one-row matrix. -/
def row128 (b : F32[S128]) : F32[S1x128] := shapeCast S1x128 b shapeCasts_S128_S1x128
def row64 (b : F32[S64]) : F32[S1x64] := shapeCast S1x64 b shapeCasts_S64_S1x64

/-- The program's neighbour sums of its first argument are `agg`. -/
theorem agg0_eq (x0 : F32[S50000x128]) (x1 : I32[S2x600000]) : val_main_v13 (F := Ideal) x0 x1 = agg x0 x1 := rfl

/-- A host dense layer into 128 columns: product with a [128, 128] matrix plus a length-128 bias, row by row. -/
theorem dense128 (y : FVec Ideal S50000x128 .f32) (w : FVec Ideal S128x128 .f32) (b : FVec Ideal S128 .f32) :
    addf (Host.dotGeneral dot_S50000x128_S128x128_S50000x128_1_0_0_1_n_n none y w)
        (broadcastInDim S50000x128 ![0, 1] bcast_S1x128_S50000x128_0_1 (broadcastInDim S1x128 ![1] bcast_S128_S1x128_1 b))
      = denseRow (R := 50000) (K := 128) (N := 128) y w (row128 b) :=
  host_dot_bias_eq (R := 50000) (K := 128) (N := 128) dot_S50000x128_S128x128_S50000x128_1_0_0_1_n_n rfl rfl
    lhs_main_v15_0 lhs_main_v15_1 rhs_main_v15_0 rhs_main_v15_1 y w b bcast_S128_S1x128_1 bcast_S1x128_S50000x128_0_1
    shapeCasts_S128_S1x128

/-- The rectifier: the entrywise maximum with an array of zeros is `pos` of every entry. -/
theorem relu_eq (S : Shape) (h : S_.BroadcastsInDim S (![] : Fin 0 → Fin S.rank)) (v : FVec Ideal S .f32) :
    maximumf v (broadcastInDim S ![] h (constant (F := Ideal) S_ .f32 0x00000000#32)) = fun i => Cert.Gin.pos (v i) := by
  funext i
  show FloatOps.maximumf (F := Ideal) (v i) (broadcastInDim S ![] h (constant (F := Ideal) S_ .f32 0x00000000#32) i) = _
  rw [bcastInDim_scalar_apply]
  rfl

/-- A rectified layer of the program on 128 columns, for any input `y` and any neighbour sums `a`. -/
theorem layerPos128 (y a : FVec Ideal S50000x128 .f32) (w1 : FVec Ideal S128x128 .f32) (b1 : FVec Ideal S128 .f32)
    (w2 : FVec Ideal S128x128 .f32) (b2 : FVec Ideal S128 .f32) :
    maximumf
        (addf
          (Host.dotGeneral dot_S50000x128_S128x128_S50000x128_1_0_0_1_n_n none
            (maximumf
              (addf (Host.dotGeneral dot_S50000x128_S128x128_S50000x128_1_0_0_1_n_n none (addf y a) w1)
                (broadcastInDim S50000x128 ![0, 1] bcast_S1x128_S50000x128_0_1 (broadcastInDim S1x128 ![1] bcast_S128_S1x128_1 b1)))
              (broadcastInDim S50000x128 ![] bcast_S_S50000x128 (constant (F := Ideal) S_ .f32 0x00000000#32)))
            w2)
          (broadcastInDim S50000x128 ![0, 1] bcast_S1x128_S50000x128_0_1 (broadcastInDim S1x128 ![1] bcast_S128_S1x128_1 b2)))
        (broadcastInDim S50000x128 ![] bcast_S_S50000x128 (constant (F := Ideal) S_ .f32 0x00000000#32))
      = Cert.Gin.layerPos (R := 50000) (K := 128) (H := 128) (N := 128) y a w1 (row128 b1) w2 (row128 b2) := by
  rw [dense128, relu_eq, dense128, relu_eq]
  rfl

/-- Layer 0 of the program. -/
theorem layer0_eq (x0 : F32[S50000x128]) (x1 : I32[S2x600000]) (x3 : F32[S128x128]) (x4 : F32[S128]) (x5 : F32[S128x128])
    (x6 : F32[S128]) :
    val_main_v26 (F := Ideal) x0 x1 x3 x4 x5 x6
      = Cert.Gin.layerPos (R := 50000) (K := 128) (H := 128) (N := 128) x0 (agg x0 x1) x3 (row128 x4) x5 (row128 x6) :=
  layerPos128 x0 (agg x0 x1) x3 x4 x5 x6

/-- Layer 1 of the program: the same rectified layer, of layer 0's output and its neighbour sums. -/
theorem layer1_eq (x0 : F32[S50000x128]) (x1 : I32[S2x600000]) (x3 : F32[S128x128]) (x4 : F32[S128]) (x5 : F32[S128x128])
    (x6 : F32[S128]) (x7 : F32[S128x128]) (x8 : F32[S128]) (x9 : F32[S128x128]) (x10 : F32[S128]) :
    val_main_v49 (F := Ideal) x0 x1 x3 x4 x5 x6 x7 x8 x9 x10
      = Cert.Gin.layerPos (R := 50000) (K := 128) (H := 128) (N := 128) (val_main_v26 (F := Ideal) x0 x1 x3 x4 x5 x6)
          (agg (val_main_v26 (F := Ideal) x0 x1 x3 x4 x5 x6) x1) x7 (row128 x8) x9 (row128 x10) :=
  layerPos128 (val_main_v26 (F := Ideal) x0 x1 x3 x4 x5 x6) (agg (val_main_v26 (F := Ideal) x0 x1 x3 x4 x5 x6) x1) x7 x8 x9 x10

/-- A host dense layer from 128 to 64 columns. -/
theorem dense128x64 (y : FVec Ideal S50000x128 .f32) (w : FVec Ideal S128x64 .f32) (b : FVec Ideal S64 .f32) :
    addf (Host.dotGeneral dot_S50000x128_S128x64_S50000x64_1_0_0_1_n_n none y w)
        (broadcastInDim S50000x64 ![0, 1] bcast_S1x64_S50000x64_0_1 (broadcastInDim S1x64 ![1] bcast_S64_S1x64_1 b))
      = denseRow (R := 50000) (K := 128) (N := 64) y w (row64 b) :=
  host_dot_bias_eq (R := 50000) (K := 128) (N := 64) dot_S50000x128_S128x64_S50000x64_1_0_0_1_n_n rfl rfl
    lhs_main_v61_0 lhs_main_v61_1 rhs_main_v61_0 rhs_main_v61_1 y w b bcast_S64_S1x64_1 bcast_S1x64_S50000x64_0_1
    shapeCasts_S64_S1x64

/-- A host dense layer from 64 to 64 columns. -/
theorem dense64x64 (y : FVec Ideal S50000x64 .f32) (w : FVec Ideal S64x64 .f32) (b : FVec Ideal S64 .f32) :
    addf (Host.dotGeneral dot_S50000x64_S64x64_S50000x64_1_0_0_1_n_n none y w)
        (broadcastInDim S50000x64 ![0, 1] bcast_S1x64_S50000x64_0_1 (broadcastInDim S1x64 ![1] bcast_S64_S1x64_1 b))
      = denseRow (R := 50000) (K := 64) (N := 64) y w (row64 b) :=
  host_dot_bias_eq (R := 50000) (K := 64) (N := 64) dot_S50000x64_S64x64_S50000x64_1_0_0_1_n_n rfl rfl
    lhs_main_v67_0 lhs_main_v67_1 rhs_main_v67_0 rhs_main_v67_1 y w b bcast_S64_S1x64_1 bcast_S1x64_S50000x64_0_1
    shapeCasts_S64_S1x64

/-- The last layer of the program (128 columns to 64 to 64, no closing rectifier), for any input `y` and neighbour sums `a`. -/
theorem layer64 (y a : FVec Ideal S50000x128 .f32) (w1 : FVec Ideal S128x64 .f32) (b1 : FVec Ideal S64 .f32)
    (w2 : FVec Ideal S64x64 .f32) (b2 : FVec Ideal S64 .f32) :
    addf
        (Host.dotGeneral dot_S50000x64_S64x64_S50000x64_1_0_0_1_n_n none
          (maximumf
            (addf (Host.dotGeneral dot_S50000x128_S128x64_S50000x64_1_0_0_1_n_n none (addf y a) w1)
              (broadcastInDim S50000x64 ![0, 1] bcast_S1x64_S50000x64_0_1 (broadcastInDim S1x64 ![1] bcast_S64_S1x64_1 b1)))
            (broadcastInDim S50000x64 ![] bcast_S_S50000x64 (constant (F := Ideal) S_ .f32 0x00000000#32)))
          w2)
        (broadcastInDim S50000x64 ![0, 1] bcast_S1x64_S50000x64_0_1 (broadcastInDim S1x64 ![1] bcast_S64_S1x64_1 b2))
      = Cert.Gin.layer (R := 50000) (K := 128) (H := 64) (N := 64) y a w1 (row64 b1) w2 (row64 b2) := by
  rw [dense64x64, dense128x64, relu_eq]
  rfl

/-- Layer 2 of the program, of layer 1's output and its neighbour sums. -/
theorem layer2_eq (x0 : F32[S50000x128]) (x1 : I32[S2x600000]) (x3 : F32[S128x128]) (x4 : F32[S128]) (x5 : F32[S128x128])
    (x6 : F32[S128]) (x7 : F32[S128x128]) (x8 : F32[S128]) (x9 : F32[S128x128]) (x10 : F32[S128]) (x11 : F32[S128x64])
    (x12 : F32[S64]) (x13 : F32[S64x64]) (x14 : F32[S64]) :
    val_main_v70 (F := Ideal) x0 x1 x3 x4 x5 x6 x7 x8 x9 x10 x11 x12 x13 x14
      = Cert.Gin.layer (R := 50000) (K := 128) (H := 64) (N := 64) (val_main_v49 (F := Ideal) x0 x1 x3 x4 x5 x6 x7 x8 x9 x10)
          (agg (val_main_v49 (F := Ideal) x0 x1 x3 x4 x5 x6 x7 x8 x9 x10) x1) x11 (row64 x12) x13 (row64 x14) :=
  layer64 (val_main_v49 (F := Ideal) x0 x1 x3 x4 x5 x6 x7 x8 x9 x10)
    (agg (val_main_v49 (F := Ideal) x0 x1 x3 x4 x5 x6 x7 x8 x9 x10) x1) x11 x12 x13 x14

/-- The program's last operation pools layer 2's output. -/
theorem pool_eq (x0 : F32[S50000x128]) (x1 : I32[S2x600000]) (x2 : I32[S50000]) (x3 : F32[S128x128]) (x4 : F32[S128])
    (x5 : F32[S128x128]) (x6 : F32[S128]) (x7 : F32[S128x128]) (x8 : F32[S128]) (x9 : F32[S128x128]) (x10 : F32[S128])
    (x11 : F32[S128x64]) (x12 : F32[S64]) (x13 : F32[S64x64]) (x14 : F32[S64]) :
    val_main_v73 (F := Ideal) x0 x1 x2 x3 x4 x5 x6 x7 x8 x9 x10 x11 x12 x13 x14
      = pool x2 (val_main_v70 (F := Ideal) x0 x1 x3 x4 x5 x6 x7 x8 x9 x10 x11 x12 x13 x14) := rfl

/-- The three layers and the pooling, as one function of the fifteen arguments. -/
def net (x0 : F32[S50000x128]) (x1 : I32[S2x600000]) (x2 : I32[S50000]) (x3 : F32[S128x128]) (x4 : F32[S128])
    (x5 : F32[S128x128]) (x6 : F32[S128]) (x7 : F32[S128x128]) (x8 : F32[S128]) (x9 : F32[S128x128]) (x10 : F32[S128])
    (x11 : F32[S128x64]) (x12 : F32[S64]) (x13 : F32[S64x64]) (x14 : F32[S64]) : F32[S512x64] :=
  let h1 := Cert.Gin.layerPos (R := 50000) (K := 128) (H := 128) (N := 128) x0 (agg x0 x1) x3 (row128 x4) x5 (row128 x6)
  let h2 := Cert.Gin.layerPos (R := 50000) (K := 128) (H := 128) (N := 128) h1 (agg h1 x1) x7 (row128 x8) x9 (row128 x10)
  pool x2 (Cert.Gin.layer (R := 50000) (K := 128) (H := 64) (N := 64) h2 (agg h2 x1) x11 (row64 x12) x13 (row64 x14))

/-- The reference program's result is `net` of its arguments. -/
theorem result_eq (x0 : F32[S50000x128]) (x1 : I32[S2x600000]) (x2 : I32[S50000]) (x3 : F32[S128x128]) (x4 : F32[S128])
    (x5 : F32[S128x128]) (x6 : F32[S128]) (x7 : F32[S128x128]) (x8 : F32[S128]) (x9 : F32[S128x128]) (x10 : F32[S128])
    (x11 : F32[S128x64]) (x12 : F32[S64]) (x13 : F32[S64x64]) (x14 : F32[S64]) :
    val_main_v73 (F := Ideal) x0 x1 x2 x3 x4 x5 x6 x7 x8 x9 x10 x11 x12 x13 x14
      = net x0 x1 x2 x3 x4 x5 x6 x7 x8 x9 x10 x11 x12 x13 x14 := by
  rw [pool_eq, layer2_eq, layer1_eq, layer0_eq]
  rfl

end Cert.ReferenceIdeal.RefValue

end
-- ==== Proof.RegionValue0.lean ====
/-
  What the first layer's region leaves in its output array, as one function of the arrays it finds.

  The region works through the 50000 node rows in ten blocks of 5000.  At each block it loads the block's rows of the
  features and of the neighbour sums, and the whole weights and bias rows, and stores

      max (max ((x + a) · w1 + b1) 0 · w2 + b2) 0

  of those rows.  Row p of that expression depends on x and a through their rows p only, so what the block at point t
  stores is rows 5000 t … 5000 t + 4999 of the same expression of the whole arrays; the ten blocks tile the rows, so the
  array ends as that expression of the whole arrays.
-/
import proofs.«106106_j90744069030484_1_alg».proof.Proof.Gen.KernelIdeal.Frame
import proofs.«106106_j90744069030484_1_alg».proof.Proof.GinLayer
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx

/-! ## The matrix product's index maps: output entry (p, q) meets row p of the left operand and column q of the right -/

theorem dd_l0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dd_l1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem dd_r0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem dd_r1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One dense layer of the matrix unit, in the kernel's spelling, is the row-by-column sum plus the bias row. -/
theorem dense0 (x : FVec Ideal S5000x128 .f32) (w : FVec Ideal S128x128 .f32) (b : FVec Ideal S1x128 .f32) :
    addf (matmul dot_S5000x128_S128x128_S5000x128_1_0_0_1_n_n none (truncf .bf16 x bitsLt_bf16_f32) (truncf .bf16 w bitsLt_bf16_f32)
          (constant (F := Ideal) S5000x128 .f32 0x00000000#32))
        (broadcastTo S5000x128 (shapeCast S1x128 b shapeCasts_S1x128_S1x128) broadcasts_S1x128_S5000x128)
      = denseRow (R := 5000) (K := 128) (N := 128) x w b :=
  mxuDense_eq (R := 5000) (K := 128) (N := 128) dot_S5000x128_S128x128_S5000x128_1_0_0_1_n_n rfl rfl dd_l0 dd_l1 dd_r0 dd_r1 x w b
    bitsLt_bf16_f32 shapeCasts_S1x128_S1x128 broadcasts_S1x128_S5000x128

/-- THE PAYLOAD: what the body stores is the rectified layer of the blocks it loaded. -/
theorem pay0_eq (v0 v1 : Vec Ideal S5000x128 .f32) (v5 : Vec Ideal S128x128 .f32) (v8 : Vec Ideal S1x128 .f32)
    (v15 : Vec Ideal S128x128 .f32) (v18 : Vec Ideal S1x128 .f32) :
    k0_pay1 (F := Ideal) v0 v1 v5 v8 v15 v18
      = Cert.Gin.layerPos (R := 5000) (K := 128) (H := 128) (N := 128) v0 v1 v5 v8 v15 v18 := by
  unfold k0_pay1
  dsimp only
  rw [shapeCast_self v1 shapeCasts_S5000x128_S5000x128, dense0, dense0]
  rfl

/-! ## Where each window's block sits in its array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the ten grid points: the two row-blocked inputs and the output sit at block row
    `t`, block column 0; the weights and bias rows are whole arrays, at block (0, 0). -/
theorem index_maps : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `r` of the features' block at point `t` is row `5000 t + r` of the features. -/
theorem read_x (c : Dev nD) (t : Fin cfg0.N) (r : Fin 5000) (k : Fin 128) (p' : Fin 50000)
    (hp : p'.val = t.val * 5000 + r.val) :
    iblk0 (F := Ideal) V c 0 t (ix2 r k) = V c main_arg0 (ix2 p' k) := by
  show V c main_arg0 (((cfg0.win 0).blk t).view.emb (ix2 r k)) = V c main_arg0 (ix2 p' k)
  refine congrArg (V c main_arg0) ?_
  obtain ⟨-, -, e0, e1, -⟩ := index_maps t
  funext a; apply Fin.ext
  match a with
  | ⟨0, _⟩ => show win0_0.index t (0 : Fin 2) * 5000 + 1 * r.val = p'.val; omega
  | ⟨1, _⟩ => show win0_0.index t (1 : Fin 2) * 128 + 1 * k.val = k.val; omega

/-- Row `r` of the neighbour sums' block at point `t` is row `5000 t + r` of the neighbour sums. -/
theorem read_a (c : Dev nD) (t : Fin cfg0.N) (r : Fin 5000) (k : Fin 128) (p' : Fin 50000)
    (hp : p'.val = t.val * 5000 + r.val) :
    iblk0 (F := Ideal) V c 1 t (ix2 r k) = V c main_v13 (ix2 p' k) := by
  show V c main_v13 (((cfg0.win 1).blk t).view.emb (ix2 r k)) = V c main_v13 (ix2 p' k)
  refine congrArg (V c main_v13) ?_
  obtain ⟨-, -, -, -, e0, e1, -⟩ := index_maps t
  funext a; apply Fin.ext
  match a with
  | ⟨0, _⟩ => show win0_1.index t (0 : Fin 2) * 5000 + 1 * r.val = p'.val; omega
  | ⟨1, _⟩ => show win0_1.index t (1 : Fin 2) * 128 + 1 * k.val = k.val; omega

/-- The first weights' window is the whole array at every point. -/
theorem read_w1 (c : Dev nD) (t : Fin cfg0.N) : (iblk0 (F := Ideal) V c 2 t : Vec Ideal S128x128 .f32) = V c main_arg3 := by
  funext j
  show V c main_arg3 (((cfg0.win 2).blk t).view.emb j) = V c main_arg3 j
  refine congrArg (V c main_arg3) ?_
  obtain ⟨-, -, -, -, -, -, e0, e1, -⟩ := index_maps t
  funext a; apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega

theorem read_b1 (c : Dev nD) (t : Fin cfg0.N) : (iblk0 (F := Ideal) V c 3 t : Vec Ideal S1x128 .f32) = V c main_v14 := by
  funext j
  show V c main_v14 (((cfg0.win 3).blk t).view.emb j) = V c main_v14 j
  refine congrArg (V c main_v14) ?_
  obtain ⟨-, -, -, -, -, -, -, -, e0, e1, -⟩ := index_maps t
  funext a; apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega

theorem read_w2 (c : Dev nD) (t : Fin cfg0.N) : (iblk0 (F := Ideal) V c 4 t : Vec Ideal S128x128 .f32) = V c main_arg5 := by
  funext j
  show V c main_arg5 (((cfg0.win 4).blk t).view.emb j) = V c main_arg5 j
  refine congrArg (V c main_arg5) ?_
  obtain ⟨-, -, -, -, -, -, -, -, -, -, e0, e1, -⟩ := index_maps t
  funext a; apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega

theorem read_b2 (c : Dev nD) (t : Fin cfg0.N) : (iblk0 (F := Ideal) V c 5 t : Vec Ideal S1x128 .f32) = V c main_v15 := by
  funext j
  show V c main_v15 (((cfg0.win 5).blk t).view.emb j) = V c main_v15 j
  refine congrArg (V c main_v15) ?_
  obtain ⟨-, -, -, -, -, -, -, -, -, -, -, -, e0, e1⟩ := index_maps t
  funext a; apply Fin.ext
  match a with
  | ⟨0, _⟩ => show win0_5.index t (0 : Fin 2) * 1 + 1 * (j 0).val = (j 0).val; omega
  | ⟨1, _⟩ => show win0_5.index t (1 : Fin 2) * 128 + 1 * (j 1).val = (j 1).val; omega

/-! ## What a point writes back, and the whole array -/

/-- WHAT POINT `t` WRITES BACK is block `t` of the rectified layer of the whole arrays: a layer's row depends on its
    operands' same row only. -/
theorem flushed_eq (c : Dev nD) (t : Fin cfg0.N) :
    (dat0 (F := Ideal) V c).flushed 6 t
      = ((cfg0.win 6).blk t).view.read (Elt Ideal)
          (Cert.Gin.layerPos (R := 50000) (K := 128) (H := 128) (N := 128) (V c main_arg0) (V c main_v13) (V c main_arg3)
            (V c main_v14) (V c main_arg5) (V c main_v15)) := by
  show (cfg0.win 6).cut (grid0.coords t) ((dat0 V c).after 6 t) = _
  rw [after0_6]
  unfold out0_6
  rw [View.canon_unit_zero zero_offsets]
  simp only [View.ld_unit_zero (S := S5000x128) zero_offsets, View.ld_unit_zero (S := S128x128) zero_offsets,
    View.ld_unit_zero (S := S1x128) zero_offsets]
  rw [pay0_eq, read_w1, read_b1, read_w2, read_b2]
  funext j
  obtain ⟨r, q, rfl⟩ : ∃ (r : Fin 5000) (q : Fin 128), j = ix2 r q := ⟨j 0, j 1, eq_ix2 j⟩
  have ht : t.val < 10 := t.isLt
  let p' : Fin 50000 := ⟨t.val * 5000 + r.val, by omega⟩
  have he : ((cfg0.win 6).blk t).view.emb (ix2 r q) = (ix2 p' q : S50000x128.Idx) := by
    obtain ⟨e0, e1, -⟩ := index_maps t
    funext a; apply Fin.ext
    match a with
    | ⟨0, _⟩ => show win0_6.index t (0 : Fin 2) * 5000 + 1 * r.val = t.val * 5000 + r.val; omega
    | ⟨1, _⟩ => show win0_6.index t (1 : Fin 2) * 128 + 1 * q.val = q.val; omega
  show Cert.Gin.layerPos (R := 5000) (K := 128) (H := 128) (N := 128) (iblk0 V c 0 t) (iblk0 V c 1 t) (V c main_arg3)
        (V c main_v14) (V c main_arg5) (V c main_v15) (ix2 r q)
      = Cert.Gin.layerPos (R := 50000) (K := 128) (H := 128) (N := 128) (V c main_arg0) (V c main_v13) (V c main_arg3)
        (V c main_v14) (V c main_arg5) (V c main_v15) (((cfg0.win 6).blk t).view.emb (ix2 r q))
  rw [he]
  exact Cert.Gin.layerPos_rows _ _ _ _ _ _ _ _ r p' q (fun k => read_x V c t r k p' rfl) (fun k => read_a V c t r k p' rfl)

/-- An index of the output array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v16).slice (win0_6.rect t)).set ↔ _
  rw [View.set_slice_whole, Rect.mem_set_unit]
  exact Iff.rfl

/-- The ten blocks of 5000 rows tile the 50000 rows: row `i` is in the block of point `i / 5000`. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hlt : (i 0).val / 5000 < 10 := by omega
  refine ⟨⟨(i 0).val / 5000, hlt⟩, flush0_6 _, ?_⟩
  rw [mem_blk]
  obtain ⟨e0, e1, -⟩ := index_maps ⟨(i 0).val / 5000, hlt⟩
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    rw [e1]; omega

/-- THE OUTPUT ARRAY after region 0, for any entry contents: the rectified layer of the arrays the region finds. -/
theorem final0 (c : Dev nD) :
    (dat0 (F := Ideal) V c).arrAt 6 cfg0.N
      = Cert.Gin.layerPos (R := 50000) (K := 128) (H := 128) (N := 128) (V c main_arg0) (V c main_v13) (V c main_arg3)
          (V c main_v14) (V c main_arg5) (V c main_v15) :=
  (dat0 V c).arrAt_eq_of_cover 6 _ (fun t _ => flushed_eq V c t) cover

end Cert.KernelIdeal.RegionValue

end
-- ==== Proof.RegionValue1.lean ====
/-
  What the second layer's region leaves in its output array, as one function of the arrays it finds.

  The region works through the 50000 node rows in ten blocks of 5000.  At each block it loads the block's rows of the
  first layer's result and of its neighbour sums, and the whole weights and bias rows, and stores

      max (max ((x + a) · w1 + b1) 0 · w2 + b2) 0

  of those rows.  Row p of that expression depends on x and a through their rows p only, so what the block at point t
  stores is rows 5000 t … 5000 t + 4999 of the same expression of the whole arrays; the ten blocks tile the rows, so the
  array ends as that expression of the whole arrays.
-/
import proofs.«106106_j90744069030484_1_alg».proof.Proof.Gen.KernelIdeal.Frame
import proofs.«106106_j90744069030484_1_alg».proof.Proof.GinLayer
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx

/-! ## The matrix product's index maps: output entry (p, q) meets row p of the left operand and column q of the right -/

theorem dd1_l0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dd1_l1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem dd1_r0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem dd1_r1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One dense layer of the matrix unit, in the kernel's spelling, is the row-by-column sum plus the bias row. -/
theorem dense1 (x : FVec Ideal S5000x128 .f32) (w : FVec Ideal S128x128 .f32) (b : FVec Ideal S1x128 .f32) :
    addf (matmul dot_S5000x128_S128x128_S5000x128_1_0_0_1_n_n none (truncf .bf16 x bitsLt_bf16_f32) (truncf .bf16 w bitsLt_bf16_f32)
          (constant (F := Ideal) S5000x128 .f32 0x00000000#32))
        (broadcastTo S5000x128 (shapeCast S1x128 b shapeCasts_S1x128_S1x128) broadcasts_S1x128_S5000x128)
      = denseRow (R := 5000) (K := 128) (N := 128) x w b :=
  mxuDense_eq (R := 5000) (K := 128) (N := 128) dot_S5000x128_S128x128_S5000x128_1_0_0_1_n_n rfl rfl dd1_l0 dd1_l1 dd1_r0 dd1_r1 x w b
    bitsLt_bf16_f32 shapeCasts_S1x128_S1x128 broadcasts_S1x128_S5000x128

/-- THE PAYLOAD: what the body stores is the rectified layer of the blocks it loaded. -/
theorem pay1_eq (v0 v1 : Vec Ideal S5000x128 .f32) (v5 : Vec Ideal S128x128 .f32) (v8 : Vec Ideal S1x128 .f32)
    (v15 : Vec Ideal S128x128 .f32) (v18 : Vec Ideal S1x128 .f32) :
    k1_pay1 (F := Ideal) v0 v1 v5 v8 v15 v18
      = Cert.Gin.layerPos (R := 5000) (K := 128) (H := 128) (N := 128) v0 v1 v5 v8 v15 v18 := by
  unfold k1_pay1
  dsimp only
  rw [shapeCast_self v0 shapeCasts_S5000x128_S5000x128, shapeCast_self v1 shapeCasts_S5000x128_S5000x128, dense1, dense1]
  rfl

/-! ## Where each window's block sits in its array -/

variable (V : (c : Dev nD) → (b : Ref sig .tc) → Buf (Elt Ideal) ((c : Thread nD τ).loc b))

theorem zero_offsets1 : (![0, 0] : Fin 2 → Nat) = fun _ => 0 := funext fun a => by fin_cases a <;> rfl

/-- The printed index maps, decided over the ten grid points: the two row-blocked inputs and the output sit at block row
    `t`, block column 0; the weights and bias rows are whole arrays, at block (0, 0). -/
theorem index_maps1 : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row `r` of the features' block at point `t` is row `5000 t + r` of the features. -/
theorem read1_x (c : Dev nD) (t : Fin cfg1.N) (r : Fin 5000) (k : Fin 128) (p' : Fin 50000)
    (hp : p'.val = t.val * 5000 + r.val) :
    iblk1 (F := Ideal) V c 0 t (ix2 r k) = V c main_v16 (ix2 p' k) := by
  show V c main_v16 (((cfg1.win 0).blk t).view.emb (ix2 r k)) = V c main_v16 (ix2 p' k)
  refine congrArg (V c main_v16) ?_
  obtain ⟨-, -, e0, e1, -⟩ := index_maps1 t
  funext a; apply Fin.ext
  match a with
  | ⟨0, _⟩ => show win1_0.index t (0 : Fin 2) * 5000 + 1 * r.val = p'.val; omega
  | ⟨1, _⟩ => show win1_0.index t (1 : Fin 2) * 128 + 1 * k.val = k.val; omega

/-- Row `r` of the neighbour sums' block at point `t` is row `5000 t + r` of the neighbour sums. -/
theorem read1_a (c : Dev nD) (t : Fin cfg1.N) (r : Fin 5000) (k : Fin 128) (p' : Fin 50000)
    (hp : p'.val = t.val * 5000 + r.val) :
    iblk1 (F := Ideal) V c 1 t (ix2 r k) = V c main_v26 (ix2 p' k) := by
  show V c main_v26 (((cfg1.win 1).blk t).view.emb (ix2 r k)) = V c main_v26 (ix2 p' k)
  refine congrArg (V c main_v26) ?_
  obtain ⟨-, -, -, -, e0, e1, -⟩ := index_maps1 t
  funext a; apply Fin.ext
  match a with
  | ⟨0, _⟩ => show win1_1.index t (0 : Fin 2) * 5000 + 1 * r.val = p'.val; omega
  | ⟨1, _⟩ => show win1_1.index t (1 : Fin 2) * 128 + 1 * k.val = k.val; omega

/-- The first weights' window is the whole array at every point. -/
theorem read1_w1 (c : Dev nD) (t : Fin cfg1.N) : (iblk1 (F := Ideal) V c 2 t : Vec Ideal S128x128 .f32) = V c main_arg7 := by
  funext j
  show V c main_arg7 (((cfg1.win 2).blk t).view.emb j) = V c main_arg7 j
  refine congrArg (V c main_arg7) ?_
  obtain ⟨-, -, -, -, -, -, e0, e1, -⟩ := index_maps1 t
  funext a; apply Fin.ext
  match a with
  | ⟨0, _⟩ => show win1_2.index t (0 : Fin 2) * 128 + 1 * (j 0).val = (j 0).val; omega
  | ⟨1, _⟩ => show win1_2.index t (1 : Fin 2) * 128 + 1 * (j 1).val = (j 1).val; omega

theorem read1_b1 (c : Dev nD) (t : Fin cfg1.N) : (iblk1 (F := Ideal) V c 3 t : Vec Ideal S1x128 .f32) = V c main_v27 := by
  funext j
  show V c main_v27 (((cfg1.win 3).blk t).view.emb j) = V c main_v27 j
  refine congrArg (V c main_v27) ?_
  obtain ⟨-, -, -, -, -, -, -, -, e0, e1, -⟩ := index_maps1 t
  funext a; apply Fin.ext
  match a with
  | ⟨0, _⟩ => show win1_3.index t (0 : Fin 2) * 1 + 1 * (j 0).val = (j 0).val; omega
  | ⟨1, _⟩ => show win1_3.index t (1 : Fin 2) * 128 + 1 * (j 1).val = (j 1).val; omega

theorem read1_w2 (c : Dev nD) (t : Fin cfg1.N) : (iblk1 (F := Ideal) V c 4 t : Vec Ideal S128x128 .f32) = V c main_arg9 := by
  funext j
  show V c main_arg9 (((cfg1.win 4).blk t).view.emb j) = V c main_arg9 j
  refine congrArg (V c main_arg9) ?_
  obtain ⟨-, -, -, -, -, -, -, -, -, -, e0, e1, -⟩ := index_maps1 t
  funext a; apply Fin.ext
  match a with
  | ⟨0, _⟩ => show win1_4.index t (0 : Fin 2) * 128 + 1 * (j 0).val = (j 0).val; omega
  | ⟨1, _⟩ => show win1_4.index t (1 : Fin 2) * 128 + 1 * (j 1).val = (j 1).val; omega

theorem read1_b2 (c : Dev nD) (t : Fin cfg1.N) : (iblk1 (F := Ideal) V c 5 t : Vec Ideal S1x128 .f32) = V c main_v28 := by
  funext j
  show V c main_v28 (((cfg1.win 5).blk t).view.emb j) = V c main_v28 j
  refine congrArg (V c main_v28) ?_
  obtain ⟨-, -, -, -, -, -, -, -, -, -, -, -, e0, e1⟩ := index_maps1 t
  funext a; apply Fin.ext
  match a with
  | ⟨0, _⟩ => show win1_5.index t (0 : Fin 2) * 1 + 1 * (j 0).val = (j 0).val; omega
  | ⟨1, _⟩ => show win1_5.index t (1 : Fin 2) * 128 + 1 * (j 1).val = (j 1).val; omega

/-! ## What a point writes back, and the whole array -/

/-- WHAT POINT `t` WRITES BACK is block `t` of the rectified layer of the whole arrays: a layer's row depends on its
    operands' same row only. -/
theorem flushed1_eq (c : Dev nD) (t : Fin cfg1.N) :
    (dat1 (F := Ideal) V c).flushed 6 t
      = ((cfg1.win 6).blk t).view.read (Elt Ideal)
          (Cert.Gin.layerPos (R := 50000) (K := 128) (H := 128) (N := 128) (V c main_v16) (V c main_v26) (V c main_arg7)
            (V c main_v27) (V c main_arg9) (V c main_v28)) := by
  show (cfg1.win 6).cut (grid1.coords t) ((dat1 V c).after 6 t) = _
  rw [after1_6]
  unfold out1_6
  rw [View.canon_unit_zero zero_offsets1]
  simp only [View.ld_unit_zero (S := S5000x128) zero_offsets1, View.ld_unit_zero (S := S128x128) zero_offsets1,
    View.ld_unit_zero (S := S1x128) zero_offsets1]
  rw [pay1_eq, read1_w1, read1_b1, read1_w2, read1_b2]
  funext j
  obtain ⟨r, q, rfl⟩ : ∃ (r : Fin 5000) (q : Fin 128), j = ix2 r q := ⟨j 0, j 1, eq_ix2 j⟩
  have ht : t.val < 10 := t.isLt
  let p' : Fin 50000 := ⟨t.val * 5000 + r.val, by omega⟩
  have he : ((cfg1.win 6).blk t).view.emb (ix2 r q) = (ix2 p' q : S50000x128.Idx) := by
    obtain ⟨e0, e1, -⟩ := index_maps1 t
    funext a; apply Fin.ext
    match a with
    | ⟨0, _⟩ => show win1_6.index t (0 : Fin 2) * 5000 + 1 * r.val = t.val * 5000 + r.val; omega
    | ⟨1, _⟩ => show win1_6.index t (1 : Fin 2) * 128 + 1 * q.val = q.val; omega
  show Cert.Gin.layerPos (R := 5000) (K := 128) (H := 128) (N := 128) (iblk1 V c 0 t) (iblk1 V c 1 t) (V c main_arg7)
        (V c main_v27) (V c main_arg9) (V c main_v28) (ix2 r q)
      = Cert.Gin.layerPos (R := 50000) (K := 128) (H := 128) (N := 128) (V c main_v16) (V c main_v26) (V c main_arg7)
        (V c main_v27) (V c main_arg9) (V c main_v28) (((cfg1.win 6).blk t).view.emb (ix2 r q))
  rw [he]
  exact Cert.Gin.layerPos_rows _ _ _ _ _ _ _ _ r p' q (fun k => read1_x V c t r k p' rfl) (fun k => read1_a V c t r k p' rfl)

/-- An index of the output array is in point `t`'s block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v29).slice (win1_6.rect t)).set ↔ _
  rw [View.set_slice_whole, Rect.mem_set_unit]
  exact Iff.rfl

/-- The ten blocks of 5000 rows tile the 50000 rows: row `i` is in the block of point `i / 5000`. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hlt : (i 0).val / 5000 < 10 := by omega
  refine ⟨⟨(i 0).val / 5000, hlt⟩, flush1_6 _, ?_⟩
  rw [mem_blk1]
  obtain ⟨e0, e1, -⟩ := index_maps1 ⟨(i 0).val / 5000, hlt⟩
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hlt⟩ (1 : Fin 2) * 128 ≤ (i 1).val
      ∧ (i 1).val < win1_6.index ⟨(i 0).val / 5000, hlt⟩ (1 : Fin 2) * 128 + 128
    rw [e1]; omega

/-- THE OUTPUT ARRAY after region 1, for any entry contents: the rectified layer of the arrays the region finds. -/
theorem final1 (c : Dev nD) :
    (dat1 (F := Ideal) V c).arrAt 6 cfg1.N
      = Cert.Gin.layerPos (R := 50000) (K := 128) (H := 128) (N := 128) (V c main_v16) (V c main_v26) (V c main_arg7)
          (V c main_v27) (V c main_arg9) (V c main_v28) :=
  (dat1 V c).arrAt_eq_of_cover 6 _ (fun t _ => flushed1_eq V c t) cover1

end Cert.KernelIdeal.RegionValue

end
-- ==== Proof.RegionValue2.lean ====
/-
  What the last layer's region leaves in its output array, as one function of the arrays it finds.

  The region works through the 50000 node rows in ten blocks of 5000.  At each block it loads the block's rows of the
  features and of the neighbour sums, and the whole weights and bias rows, and stores

      max ((x + a) · w1 + b1) 0 · w2 + b2

  of those rows: 128 columns go to 64 and then to 64, and the result is not rectified again.  Row p of that expression
  depends on x and a through their rows p only, so what the block at point t stores is rows 5000 t … 5000 t + 4999 of the
  same expression of the whole arrays; the ten blocks tile the rows, so the array ends as that expression of the whole
  arrays.
-/
import proofs.«106106_j90744069030484_1_alg».proof.Proof.Gen.KernelIdeal.Frame
import proofs.«106106_j90744069030484_1_alg».proof.Proof.GinLayer
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx

/-! ## The two matrix products' index maps: output entry (p, q) meets row p of the left operand and column q of the right -/

theorem dd2a_l0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dd2a_l1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem dd2a_r0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem dd2a_r1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem dd2b_l0 (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dd2b_l1 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
theorem dd2b_r0 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
theorem dd2b_r1 (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The first dense layer of the matrix unit (128 columns to 64), in the kernel's spelling, is the row-by-column sum plus
    the bias row. -/
theorem dense2a (x : FVec Ideal S5000x128 .f32) (w : FVec Ideal S128x64 .f32) (b : FVec Ideal S1x64 .f32) :
    addf (matmul dot_S5000x128_S128x64_S5000x64_1_0_0_1_n_n none (truncf .bf16 x bitsLt_bf16_f32) (truncf .bf16 w bitsLt_bf16_f32)
          (constant (F := Ideal) S5000x64 .f32 0x00000000#32))
        (broadcastTo S5000x64 (shapeCast S1x64 b shapeCasts_S1x64_S1x64) broadcasts_S1x64_S5000x64)
      = denseRow (R := 5000) (K := 128) (N := 64) x w b :=
  mxuDense_eq (R := 5000) (K := 128) (N := 64) dot_S5000x128_S128x64_S5000x64_1_0_0_1_n_n rfl rfl dd2a_l0 dd2a_l1 dd2a_r0 dd2a_r1 x w b
    bitsLt_bf16_f32 shapeCasts_S1x64_S1x64 broadcasts_S1x64_S5000x64

/-- The second dense layer (64 columns to 64) likewise. -/
theorem dense2b (x : FVec Ideal S5000x64 .f32) (w : FVec Ideal S64x64 .f32) (b : FVec Ideal S1x64 .f32) :
    addf (matmul dot_S5000x64_S64x64_S5000x64_1_0_0_1_n_n none (truncf .bf16 x bitsLt_bf16_f32) (truncf .bf16 w bitsLt_bf16_f32)
          (constant (F := Ideal) S5000x64 .f32 0x00000000#32))
        (broadcastTo S5000x64 (shapeCast S1x64 b shapeCasts_S1x64_S1x64) broadcasts_S1x64_S5000x64)
      = denseRow (R := 5000) (K := 64) (N := 64) x w b :=
  mxuDense_eq (R := 5000) (K := 64) (N := 64) dot_S5000x64_S64x64_S5000x64_1_0_0_1_n_n rfl rfl dd2b_l0 dd2b_l1 dd2b_r0 dd2b_r1 x w b
    bitsLt_bf16_f32 shapeCasts_S1x64_S1x64 broadcasts_S1x64_S5000x64

/-- THE PAYLOAD: what the body stores is the layer (without a closing rectifier) of the blocks it loaded. -/
theorem pay2_eq (v0 v2 : Vec Ideal S5000x128 .f32) (v6 : Vec Ideal S128x64 .f32) (v9 : Vec Ideal S1x64 .f32)
    (v16 : Vec Ideal S64x64 .f32) (v19 : Vec Ideal S1x64 .f32) :
    k2_pay1 (F := Ideal) v0 v2 v6 v9 v16 v19
      = Cert.Gin.layer (R := 5000) (K := 128) (H := 64) (N := 64) v0 v2 v6 v9 v16 v19 := by
  unfold k2_pay1
  dsimp only
  rw [shapeCast_self v0 shapeCasts_S5000x128_S5000x128, shapeCast_self v2 shapeCasts_S5000x128_S5000x128, dense2a, dense2b]
  rfl

/-! ## Where each window's block sits in its array -/

variable (V : (c : Dev nD) → (b : Ref sig .tc) → Buf (Elt Ideal) ((c : Thread nD τ).loc b))

theorem zero_offsets2 : (![0, 0] : Fin 2 → Nat) = fun _ => 0 := funext fun a => by fin_cases a <;> rfl

/-- The printed index maps, decided over the ten grid points: the two row-blocked inputs and the output sit at block row
    `t`, block column 0; the weights and bias rows are whole arrays, at block (0, 0). -/
theorem index_maps2 : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row `r` of the features' block at point `t` is row `5000 t + r` of the features. -/
theorem read2_x (c : Dev nD) (t : Fin cfg2.N) (r : Fin 5000) (k : Fin 128) (p' : Fin 50000)
    (hp : p'.val = t.val * 5000 + r.val) :
    iblk2 (F := Ideal) V c 0 t (ix2 r k) = V c main_v29 (ix2 p' k) := by
  show V c main_v29 (((cfg2.win 0).blk t).view.emb (ix2 r k)) = V c main_v29 (ix2 p' k)
  refine congrArg (V c main_v29) ?_
  obtain ⟨-, -, e0, e1, -⟩ := index_maps2 t
  funext a; apply Fin.ext
  match a with
  | ⟨0, _⟩ => show win2_0.index t (0 : Fin 2) * 5000 + 1 * r.val = p'.val; omega
  | ⟨1, _⟩ => show win2_0.index t (1 : Fin 2) * 128 + 1 * k.val = k.val; omega

/-- Row `r` of the neighbour sums' block at point `t` is row `5000 t + r` of the neighbour sums. -/
theorem read2_a (c : Dev nD) (t : Fin cfg2.N) (r : Fin 5000) (k : Fin 128) (p' : Fin 50000)
    (hp : p'.val = t.val * 5000 + r.val) :
    iblk2 (F := Ideal) V c 1 t (ix2 r k) = V c main_v39 (ix2 p' k) := by
  show V c main_v39 (((cfg2.win 1).blk t).view.emb (ix2 r k)) = V c main_v39 (ix2 p' k)
  refine congrArg (V c main_v39) ?_
  obtain ⟨-, -, -, -, e0, e1, -⟩ := index_maps2 t
  funext a; apply Fin.ext
  match a with
  | ⟨0, _⟩ => show win2_1.index t (0 : Fin 2) * 5000 + 1 * r.val = p'.val; omega
  | ⟨1, _⟩ => show win2_1.index t (1 : Fin 2) * 128 + 1 * k.val = k.val; omega

/-- The first weights' window is the whole array at every point. -/
theorem read2_w1 (c : Dev nD) (t : Fin cfg2.N) : (iblk2 (F := Ideal) V c 2 t : Vec Ideal S128x64 .f32) = V c main_arg11 := by
  funext j
  show V c main_arg11 (((cfg2.win 2).blk t).view.emb j) = V c main_arg11 j
  refine congrArg (V c main_arg11) ?_
  obtain ⟨-, -, -, -, -, -, e0, e1, -⟩ := index_maps2 t
  funext a; apply Fin.ext
  match a with
  | ⟨0, _⟩ => show win2_2.index t (0 : Fin 2) * 128 + 1 * (j 0).val = (j 0).val; omega
  | ⟨1, _⟩ => show win2_2.index t (1 : Fin 2) * 64 + 1 * (j 1).val = (j 1).val; omega

/-- The first bias row's window likewise. -/
theorem read2_b1 (c : Dev nD) (t : Fin cfg2.N) : (iblk2 (F := Ideal) V c 3 t : Vec Ideal S1x64 .f32) = V c main_v40 := by
  funext j
  show V c main_v40 (((cfg2.win 3).blk t).view.emb j) = V c main_v40 j
  refine congrArg (V c main_v40) ?_
  obtain ⟨-, -, -, -, -, -, -, -, e0, e1, -⟩ := index_maps2 t
  funext a; apply Fin.ext
  match a with
  | ⟨0, _⟩ => show win2_3.index t (0 : Fin 2) * 1 + 1 * (j 0).val = (j 0).val; omega
  | ⟨1, _⟩ => show win2_3.index t (1 : Fin 2) * 64 + 1 * (j 1).val = (j 1).val; omega

/-- The second weights' window likewise. -/
theorem read2_w2 (c : Dev nD) (t : Fin cfg2.N) : (iblk2 (F := Ideal) V c 4 t : Vec Ideal S64x64 .f32) = V c main_arg13 := by
  funext j
  show V c main_arg13 (((cfg2.win 4).blk t).view.emb j) = V c main_arg13 j
  refine congrArg (V c main_arg13) ?_
  obtain ⟨-, -, -, -, -, -, -, -, -, -, e0, e1, -⟩ := index_maps2 t
  funext a; apply Fin.ext
  match a with
  | ⟨0, _⟩ => show win2_4.index t (0 : Fin 2) * 64 + 1 * (j 0).val = (j 0).val; omega
  | ⟨1, _⟩ => show win2_4.index t (1 : Fin 2) * 64 + 1 * (j 1).val = (j 1).val; omega

/-- The second bias row's window likewise. -/
theorem read2_b2 (c : Dev nD) (t : Fin cfg2.N) : (iblk2 (F := Ideal) V c 5 t : Vec Ideal S1x64 .f32) = V c main_v41 := by
  funext j
  show V c main_v41 (((cfg2.win 5).blk t).view.emb j) = V c main_v41 j
  refine congrArg (V c main_v41) ?_
  obtain ⟨-, -, -, -, -, -, -, -, -, -, -, -, e0, e1⟩ := index_maps2 t
  funext a; apply Fin.ext
  match a with
  | ⟨0, _⟩ => show win2_5.index t (0 : Fin 2) * 1 + 1 * (j 0).val = (j 0).val; omega
  | ⟨1, _⟩ => show win2_5.index t (1 : Fin 2) * 64 + 1 * (j 1).val = (j 1).val; omega

/-! ## What a point writes back, and the whole array -/

/-- WHAT POINT `t` WRITES BACK is block `t` of the layer of the whole arrays: a layer's row depends on its operands' same
    row only. -/
theorem flushed2_eq (c : Dev nD) (t : Fin cfg2.N) :
    (dat2 (F := Ideal) V c).flushed 6 t
      = ((cfg2.win 6).blk t).view.read (Elt Ideal)
          (Cert.Gin.layer (R := 50000) (K := 128) (H := 64) (N := 64) (V c main_v29) (V c main_v39) (V c main_arg11)
            (V c main_v40) (V c main_arg13) (V c main_v41)) := by
  show (cfg2.win 6).cut (grid2.coords t) ((dat2 V c).after 6 t) = _
  rw [after2_6]
  unfold out2_6
  rw [View.canon_unit_zero zero_offsets2]
  simp only [View.ld_unit_zero (S := S5000x128) zero_offsets2, View.ld_unit_zero (S := S128x64) zero_offsets2,
    View.ld_unit_zero (S := S1x64) zero_offsets2, View.ld_unit_zero (S := S64x64) zero_offsets2]
  rw [pay2_eq, read2_w1, read2_b1, read2_w2, read2_b2]
  funext j
  obtain ⟨r, q, rfl⟩ : ∃ (r : Fin 5000) (q : Fin 64), j = ix2 r q := ⟨j 0, j 1, eq_ix2 j⟩
  have ht : t.val < 10 := t.isLt
  let p' : Fin 50000 := ⟨t.val * 5000 + r.val, by omega⟩
  have he : ((cfg2.win 6).blk t).view.emb (ix2 r q) = (ix2 p' q : S50000x64.Idx) := by
    obtain ⟨e0, e1, -⟩ := index_maps2 t
    funext a; apply Fin.ext
    match a with
    | ⟨0, _⟩ => show win2_6.index t (0 : Fin 2) * 5000 + 1 * r.val = t.val * 5000 + r.val; omega
    | ⟨1, _⟩ => show win2_6.index t (1 : Fin 2) * 64 + 1 * q.val = q.val; omega
  show Cert.Gin.layer (R := 5000) (K := 128) (H := 64) (N := 64) (iblk2 V c 0 t) (iblk2 V c 1 t) (V c main_arg11)
        (V c main_v40) (V c main_arg13) (V c main_v41) (ix2 r q)
      = Cert.Gin.layer (R := 50000) (K := 128) (H := 64) (N := 64) (V c main_v29) (V c main_v39) (V c main_arg11)
        (V c main_v40) (V c main_arg13) (V c main_v41) (((cfg2.win 6).blk t).view.emb (ix2 r q))
  rw [he]
  exact Cert.Gin.layer_rows _ _ _ _ _ _ _ _ r p' q (fun k => read2_x V c t r k p' rfl) (fun k => read2_a V c t r k p' rfl)

/-- An index of the output array is in point `t`'s block iff each coordinate is in the block's range on its axis. -/
theorem mem_blk2 (t : Fin cfg2.N) (i : S50000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v42).slice (win2_6.rect t)).set ↔ _
  rw [View.set_slice_whole, Rect.mem_set_unit]
  exact Iff.rfl

/-- The ten blocks of 5000 rows tile the 50000 rows: row `i` is in the block of point `i / 5000`. -/
theorem cover2 (i : S50000x64.Idx) :
    ∃ t : Fin cfg2.N, (cfg2.win 6).flush t = true ∧ i ∈ ((cfg2.win 6).blk t).view.set := by
  have hi0 : (i 0).val < 50000 := (i 0).isLt
  have hi1 : (i 1).val < 64 := (i 1).isLt
  have hlt : (i 0).val / 5000 < 10 := by omega
  refine ⟨⟨(i 0).val / 5000, hlt⟩, flush2_6 _, ?_⟩
  rw [mem_blk2]
  obtain ⟨e0, e1, -⟩ := index_maps2 ⟨(i 0).val / 5000, hlt⟩
  intro a
  match a with
  | ⟨0, _⟩ =>
    show win2_6.index ⟨(i 0).val / 5000, hlt⟩ (0 : Fin 2) * 5000 ≤ (i 0).val
      ∧ (i 0).val < win2_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, hlt⟩ (1 : Fin 2) * 64 ≤ (i 1).val
      ∧ (i 1).val < win2_6.index ⟨(i 0).val / 5000, hlt⟩ (1 : Fin 2) * 64 + 64
    rw [e1]; omega

/-- THE OUTPUT ARRAY after region 2, for any entry contents: the layer of the arrays the region finds. -/
theorem final2 (c : Dev nD) :
    (dat2 (F := Ideal) V c).arrAt 6 cfg2.N
      = Cert.Gin.layer (R := 50000) (K := 128) (H := 64) (N := 64) (V c main_v29) (V c main_v39) (V c main_arg11)
          (V c main_v40) (V c main_arg13) (V c main_v41) :=
  (dat2 V c).arrAt_eq_of_cover 6 _ (fun t _ => flushed2_eq V c t) cover2

end Cert.KernelIdeal.RegionValue

end
-- ==== Proof.Walk.lean ====
import proofs.«106106_j90744069030484_1_alg».proof.Proof.Gen.KernelIdeal.Frame
import Idealize.ShloMosaic.Lib.StableHlo.Run
import Idealize.ShloMosaic.PureOps.Ideal.Laws

/-!
# The host side of the idealized kernel program, between its regions

The program alternates stretches of host operations with three pipelined regions. This module reads, through the
generated fold of buffer contents, what each region's six input arrays hold when the region is entered and what
the program's result holds at the end, as closed terms over the launch contents of the arguments and over the
previous region's output array:

* the neighbour sums `agg h e` (every edge adds its source node's row of `h` into its destination node's row),
* the bias vectors as one-row matrices,
* the final pooling `pool b h` (every node adds its row into its graph's row).
-/

set_option maxRecDepth 16384

noncomputable section

namespace Cert.KernelIdeal.Walk

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ) (ρ : Dev nD → PrngReg)

/-- the edges' source node: row 0 of the `[2, E]` table as a length-`E` vector -/
def src (e : (⟨S2x600000, .i32⟩ : BufTy).Contents (Elt Ideal)) : (⟨S600000, .i32⟩ : BufTy).Contents (Elt Ideal) :=
  shapeCast _ (extractStridedSlice S1x600000 ![0, 0] e slices_S2x600000_S1x600000_0_0) shapeCasts_S1x600000_S600000

/-- the edges' destination node: row 1 of the `[2, E]` table as a length-`E` vector -/
def dst (e : (⟨S2x600000, .i32⟩ : BufTy).Contents (Elt Ideal)) : (⟨S600000, .i32⟩ : BufTy).Contents (Elt Ideal) :=
  shapeCast _ (extractStridedSlice S1x600000 ![1, 0] e slices_S2x600000_S1x600000_1_0) shapeCasts_S1x600000_S600000

/-- a negative node index counts from the end: the programs add the number of nodes to it -/
def wrap (s : (⟨S600000, .i32⟩ : BufTy).Contents (Elt Ideal)) : (⟨S600000, .i32⟩ : BufTy).Contents (Elt Ideal) :=
  select (cmpi .slt s (broadcastInDim S600000 ![] bcast_S_S600000 (constantI S_ 32 0#32)))
    (addi s (broadcastInDim S600000 ![] bcast_S_S600000 (constantI S_ 32 50000#32))) s

/-- neighbour sums: every edge adds its source node's row of `h` into its destination node's row of a zero array -/
def agg (h : (⟨S50000x128, .f32⟩ : BufTy).Contents (Elt Ideal)) (e : (⟨S2x600000, .i32⟩ : BufTy).Contents (Elt Ideal)) :
    (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 (dst e))
    (Host.gather gather_S50000x128_S600000x1_S600000x128_1_0_n_n_0_1_1128 h
      (broadcastInDim S600000x1 ![0] bcast_S600000_S600000x1_0 (wrap (src e))))

/-- pooling: every node adds its row of `h` into its graph's row of a zero array -/
def pool (b : (⟨S50000, .i32⟩ : BufTy).Contents (Elt Ideal)) (h : (⟨S50000x64, .f32⟩ : BufTy).Contents (Elt Ideal)) :
    (⟨S512x64, .f32⟩ : BufTy).Contents (Elt Ideal) :=
  Host.scatterAdd scatter_S512x64_S50000x1_S50000x64_1_0_0_1
    (broadcastInDim S512x64 ![] bcast_S_S512x64 (constant (F := Ideal) S_ .f32 0x00000000#32))
    (broadcastInDim S50000x1 ![0] bcast_S50000_S50000x1_0 b) h

/-- a bias vector of length 128 as a one-row matrix -/
def row128 (b : (⟨S128, .f32⟩ : BufTy).Contents (Elt Ideal)) : (⟨S1x128, .f32⟩ : BufTy).Contents (Elt Ideal) :=
  shapeCast S1x128 b shapeCasts_S128_S1x128

/-- a bias vector of length 64 as a one-row matrix -/
def row64 (b : (⟨S64, .f32⟩ : BufTy).Contents (Elt Ideal)) : (⟨S1x64, .f32⟩ : BufTy).Contents (Elt Ideal) :=
  shapeCast S1x64 b shapeCasts_S64_S1x64

/-- a buffer that no operation of a stretch writes: the side condition, decided operation by operation -/
local macro "not_written" : tactic => `(tactic| (
  refine List.forall_iff_forall_mem.mp ?_
  simp only [hostOps0, hostOps1, hostOps2, hostOps3, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

-- the contents at a region's exit are only ever rewritten by the generated equations about them, never unfolded
attribute [local irreducible] W2 W4 W6

/-! ## The first stretch: from the launch to region 0's entry -/

section
variable (c : Dev nD)

/-- a buffer the first stretch does not write holds its launch contents at region 0's entry -/
theorem W1_keep (b : Ref sig .tc)
    (h : ∀ op ∈ (hostOps0 : List (HloOp τ sig (Elt Ideal))), (Proc.devRef .tc b : DevRef τ sig) ∉ op.writes) :
    W1 m ρ c (Proc.devRef .tc b) = m ((c : Thread nD τ).loc b) :=
  (StableHlo.after_of_forall_not_mem (b := Proc.devRef .tc b) _ _ h).trans rfl

theorem entry0_x : V1 m ρ c main_arg0 = m ((c : Thread nD τ).loc main_arg0) := W1_keep m ρ c main_arg0 (by not_written)
theorem entry0_w1 : V1 m ρ c main_arg3 = m ((c : Thread nD τ).loc main_arg3) := W1_keep m ρ c main_arg3 (by not_written)
theorem entry0_w2 : V1 m ρ c main_arg5 = m ((c : Thread nD τ).loc main_arg5) := W1_keep m ρ c main_arg5 (by not_written)

theorem W1_src : W1 m ρ c (Proc.devRef .tc main_v1) = src (m ((c : Thread nD τ).loc main_arg1)) := by
  show StableHlo.after hostOps0 _ (Proc.devRef .tc main_v1) = _
  after_results
  rfl

theorem W1_dst : W1 m ρ c (Proc.devRef .tc main_v3) = dst (m ((c : Thread nD τ).loc main_arg1)) := by
  show StableHlo.after hostOps0 _ (Proc.devRef .tc main_v3) = _
  after_results
  rfl

theorem entry0_b1 : V1 m ρ c main_v14 = row128 (m ((c : Thread nD τ).loc main_arg4)) := by
  show StableHlo.after hostOps0 _ (Proc.devRef .tc main_v14) = _
  after_results
  rfl

theorem entry0_b2 : V1 m ρ c main_v15 = row128 (m ((c : Thread nD τ).loc main_arg6)) := by
  show StableHlo.after hostOps0 _ (Proc.devRef .tc main_v15) = _
  after_results
  rfl

set_option maxHeartbeats 1000000 in
theorem entry0_agg : V1 m ρ c main_v13
    = agg (m ((c : Thread nD τ).loc main_arg0)) (m ((c : Thread nD τ).loc main_arg1)) := by
  show StableHlo.after hostOps0 _ (Proc.devRef .tc main_v13) = _
  after_results
  rfl

end

/-! ## Region 0 and the second stretch: to region 1's entry

Region 0 leaves every buffer but its seven arrays as it found it, its six input arrays too, and its output array at
what the pipeline wrote. -/

section
variable (c : Dev nD)

/-- a buffer that is none of region 0's arrays and that the first stretch does not write: its launch contents -/
theorem W2_launch (b : Ref sig .tc) (n0 : ∀ w, Pipeline.arrRef spec0 w ≠ b)
    (h0 : ∀ op ∈ (hostOps0 : List (HloOp τ sig (Elt Ideal))), (Proc.devRef .tc b : DevRef τ sig) ∉ op.writes) :
    W2 m ρ c (Proc.devRef .tc b) = m ((c : Thread nD τ).loc b) :=
  (W2_of_ne m ρ c b n0).trans (W1_keep m ρ c b h0)

theorem W2_src : W2 m ρ c (Proc.devRef .tc main_v1) = src (m ((c : Thread nD τ).loc main_arg1)) :=
  (W2_of_ne m ρ c main_v1 (by decide)).trans (W1_src m ρ c)

theorem W2_dst : W2 m ρ c (Proc.devRef .tc main_v3) = dst (m ((c : Thread nD τ).loc main_arg1)) :=
  (W2_of_ne m ρ c main_v3 (by decide)).trans (W1_dst m ρ c)

/-- region 0's output array at its exit: the write-backs of all its grid points -/
theorem W2_out : W2 m ρ c (Proc.devRef .tc main_v16) = (dat0 (V1 m ρ) c).arrAt 6 cfg0.N := W2_arr m ρ c 6

/-- a buffer the second stretch does not write keeps what region 0 left -/
theorem W3_keep (b : Ref sig .tc)
    (h : ∀ op ∈ (hostOps1 : List (HloOp τ sig (Elt Ideal))), (Proc.devRef .tc b : DevRef τ sig) ∉ op.writes) :
    W3 m ρ c (Proc.devRef .tc b) = W2 m ρ c (Proc.devRef .tc b) :=
  StableHlo.after_of_forall_not_mem (b := Proc.devRef .tc b) _ _ h

theorem W3_launch (b : Ref sig .tc) (n0 : ∀ w, Pipeline.arrRef spec0 w ≠ b)
    (h0 : ∀ op ∈ (hostOps0 : List (HloOp τ sig (Elt Ideal))), (Proc.devRef .tc b : DevRef τ sig) ∉ op.writes)
    (h1 : ∀ op ∈ (hostOps1 : List (HloOp τ sig (Elt Ideal))), (Proc.devRef .tc b : DevRef τ sig) ∉ op.writes) :
    W3 m ρ c (Proc.devRef .tc b) = m ((c : Thread nD τ).loc b) :=
  (W3_keep m ρ c b h1).trans (W2_launch m ρ c b n0 h0)

theorem entry1_x : V3 m ρ c main_v16 = (dat0 (V1 m ρ) c).arrAt 6 cfg0.N :=
  (W3_keep m ρ c main_v16 (by not_written)).trans (W2_out m ρ c)

theorem entry1_w1 : V3 m ρ c main_arg7 = m ((c : Thread nD τ).loc main_arg7) :=
  W3_launch m ρ c main_arg7 (by decide) (by not_written) (by not_written)

theorem entry1_w2 : V3 m ρ c main_arg9 = m ((c : Thread nD τ).loc main_arg9) :=
  W3_launch m ρ c main_arg9 (by decide) (by not_written) (by not_written)

theorem entry1_b1 : V3 m ρ c main_v27 = row128 (m ((c : Thread nD τ).loc main_arg8)) := by
  show StableHlo.after hostOps1 _ (Proc.devRef .tc main_v27) = _
  after_results
  rw [W2_launch m ρ c main_arg8 (by decide) (by not_written)]
  rfl

theorem entry1_b2 : V3 m ρ c main_v28 = row128 (m ((c : Thread nD τ).loc main_arg10)) := by
  show StableHlo.after hostOps1 _ (Proc.devRef .tc main_v28) = _
  after_results
  rw [W2_launch m ρ c main_arg10 (by decide) (by not_written)]
  rfl

set_option maxHeartbeats 1000000 in
theorem entry1_agg : V3 m ρ c main_v26
    = agg ((dat0 (V1 m ρ) c).arrAt 6 cfg0.N) (m ((c : Thread nD τ).loc main_arg1)) := by
  show StableHlo.after hostOps1 _ (Proc.devRef .tc main_v26) = _
  after_results
  rw [W2_src m ρ c, W2_dst m ρ c, W2_out m ρ c]
  rfl

end

/-! ## Region 1 and the third stretch: to region 2's entry -/

section
variable (c : Dev nD)

theorem W4_launch (b : Ref sig .tc) (n0 : ∀ w, Pipeline.arrRef spec0 w ≠ b) (n1 : ∀ w, Pipeline.arrRef spec1 w ≠ b)
    (h0 : ∀ op ∈ (hostOps0 : List (HloOp τ sig (Elt Ideal))), (Proc.devRef .tc b : DevRef τ sig) ∉ op.writes)
    (h1 : ∀ op ∈ (hostOps1 : List (HloOp τ sig (Elt Ideal))), (Proc.devRef .tc b : DevRef τ sig) ∉ op.writes) :
    W4 m ρ c (Proc.devRef .tc b) = m ((c : Thread nD τ).loc b) :=
  (W4_of_ne m ρ c b n1).trans (W3_launch m ρ c b n0 h0 h1)

theorem W4_src : W4 m ρ c (Proc.devRef .tc main_v1) = src (m ((c : Thread nD τ).loc main_arg1)) :=
  (W4_of_ne m ρ c main_v1 (by decide)).trans ((W3_keep m ρ c main_v1 (by not_written)).trans (W2_src m ρ c))

theorem W4_dst : W4 m ρ c (Proc.devRef .tc main_v3) = dst (m ((c : Thread nD τ).loc main_arg1)) :=
  (W4_of_ne m ρ c main_v3 (by decide)).trans ((W3_keep m ρ c main_v3 (by not_written)).trans (W2_dst m ρ c))

/-- region 1's output array at its exit: the write-backs of all its grid points -/
theorem W4_out : W4 m ρ c (Proc.devRef .tc main_v29) = (dat1 (V3 m ρ) c).arrAt 6 cfg1.N := W4_arr m ρ c 6

/-- a buffer the third stretch does not write keeps what region 1 left -/
theorem W5_keep (b : Ref sig .tc)
    (h : ∀ op ∈ (hostOps2 : List (HloOp τ sig (Elt Ideal))), (Proc.devRef .tc b : DevRef τ sig) ∉ op.writes) :
    W5 m ρ c (Proc.devRef .tc b) = W4 m ρ c (Proc.devRef .tc b) :=
  StableHlo.after_of_forall_not_mem (b := Proc.devRef .tc b) _ _ h

theorem W5_launch (b : Ref sig .tc) (n0 : ∀ w, Pipeline.arrRef spec0 w ≠ b) (n1 : ∀ w, Pipeline.arrRef spec1 w ≠ b)
    (h0 : ∀ op ∈ (hostOps0 : List (HloOp τ sig (Elt Ideal))), (Proc.devRef .tc b : DevRef τ sig) ∉ op.writes)
    (h1 : ∀ op ∈ (hostOps1 : List (HloOp τ sig (Elt Ideal))), (Proc.devRef .tc b : DevRef τ sig) ∉ op.writes)
    (h2 : ∀ op ∈ (hostOps2 : List (HloOp τ sig (Elt Ideal))), (Proc.devRef .tc b : DevRef τ sig) ∉ op.writes) :
    W5 m ρ c (Proc.devRef .tc b) = m ((c : Thread nD τ).loc b) :=
  (W5_keep m ρ c b h2).trans (W4_launch m ρ c b n0 n1 h0 h1)

theorem entry2_x : V5 m ρ c main_v29 = (dat1 (V3 m ρ) c).arrAt 6 cfg1.N :=
  (W5_keep m ρ c main_v29 (by not_written)).trans (W4_out m ρ c)

theorem entry2_w1 : V5 m ρ c main_arg11 = m ((c : Thread nD τ).loc main_arg11) :=
  W5_launch m ρ c main_arg11 (by decide) (by decide) (by not_written) (by not_written) (by not_written)

theorem entry2_w2 : V5 m ρ c main_arg13 = m ((c : Thread nD τ).loc main_arg13) :=
  W5_launch m ρ c main_arg13 (by decide) (by decide) (by not_written) (by not_written) (by not_written)

theorem entry2_b1 : V5 m ρ c main_v40 = row64 (m ((c : Thread nD τ).loc main_arg12)) := by
  show StableHlo.after hostOps2 _ (Proc.devRef .tc main_v40) = _
  after_results
  rw [W4_launch m ρ c main_arg12 (by decide) (by decide) (by not_written) (by not_written)]
  rfl

theorem entry2_b2 : V5 m ρ c main_v41 = row64 (m ((c : Thread nD τ).loc main_arg14)) := by
  show StableHlo.after hostOps2 _ (Proc.devRef .tc main_v41) = _
  after_results
  rw [W4_launch m ρ c main_arg14 (by decide) (by decide) (by not_written) (by not_written)]
  rfl

set_option maxHeartbeats 1000000 in
theorem entry2_agg : V5 m ρ c main_v39
    = agg ((dat1 (V3 m ρ) c).arrAt 6 cfg1.N) (m ((c : Thread nD τ).loc main_arg1)) := by
  show StableHlo.after hostOps2 _ (Proc.devRef .tc main_v39) = _
  after_results
  rw [W4_src m ρ c, W4_dst m ρ c, W4_out m ρ c]
  rfl

end

/-! ## Region 2 and the last stretch: the result -/

section
variable (c : Dev nD)

/-- region 2's output array at its exit: the write-backs of all its grid points -/
theorem W6_out : W6 m ρ c (Proc.devRef .tc main_v42) = (dat2 (V5 m ρ) c).arrAt 6 cfg2.N := W6_arr m ρ c 6

/-- the nodes' graph numbers are as launched when the pooling reads them -/
theorem W6_batch : W6 m ρ c (Proc.devRef .tc main_arg2) = m ((c : Thread nD τ).loc main_arg2) :=
  (W6_of_ne m ρ c main_arg2 (by decide)).trans
    (W5_launch m ρ c main_arg2 (by decide) (by decide) (by not_written) (by not_written) (by not_written))

theorem result : W7 m ρ c (Proc.devRef .tc main_v45)
    = pool (m ((c : Thread nD τ).loc main_arg2)) ((dat2 (V5 m ρ) c).arrAt 6 cfg2.N) := by
  show StableHlo.after hostOps3 _ (Proc.devRef .tc main_v45) = _
  after_results
  rw [W6_batch m ρ c, W6_out m ρ c]
  rfl

end

end Cert.KernelIdeal.Walk

end
-- ==== Proof.Bridge.lean ====
/-
  The kernel program's result as the network of its arguments.

  The program's buffer contents at each segment boundary are a fold from the launch memory.  Read through that fold,
  each region finds in its six input arrays: the previous layer's output (the node features for the first layer), the
  neighbour sums of that output, and the layer's two weight matrices and two bias rows as launched.  Each region leaves
  in its output array the layer of what it finds — block by block of 5000 rows, which by the row locality of a layer is
  the layer of the whole arrays.  Substituting from the last region back to the first, the pooled result is the three
  layers composed: the function `net` that the reference program computes from the same arguments.

  The host operations that form the neighbour sums and the pooling are the same operations in both programs (each
  program states its own copy of their side conditions); they are carried as opaque functions and never opened.
-/
import proofs.«106106_j90744069030484_1_alg».proof.Proof.Gen.KernelIdeal.Frame
import proofs.«106106_j90744069030484_1_alg».proof.Proof.GinLayer
import proofs.«106106_j90744069030484_1_alg».proof.Proof.RegionValue0
import proofs.«106106_j90744069030484_1_alg».proof.Proof.RegionValue1
import proofs.«106106_j90744069030484_1_alg».proof.Proof.RegionValue2
import proofs.«106106_j90744069030484_1_alg».proof.Proof.Walk
import proofs.«106106_j90744069030484_1_alg».proof.Proof.RefValue

set_option maxRecDepth 16384

noncomputable section

namespace Cert.KernelIdeal.Bridge
open Cert.KernelIdeal Cert.KernelIdeal.Gen Idealize.ShloMosaic Idealize.ShloMosaic.TcCoe Idealize.SL.Sem

theorem src_eq : @Cert.KernelIdeal.Walk.src = @Cert.ReferenceIdeal.RefValue.src := rfl
theorem agg_eq : @Cert.KernelIdeal.Walk.agg = @Cert.ReferenceIdeal.RefValue.agg := rfl
theorem pool_eq : @Cert.KernelIdeal.Walk.pool = @Cert.ReferenceIdeal.RefValue.pool := rfl
theorem row128_eq : @Cert.KernelIdeal.Walk.row128 = @Cert.ReferenceIdeal.RefValue.row128 := rfl
theorem row64_eq : @Cert.KernelIdeal.Walk.row64 = @Cert.ReferenceIdeal.RefValue.row64 := rfl

variable (m : (ℓ : Loc nD τ sig) → Buf (Elt Ideal) ℓ) (ρ : Dev nD → PrngReg) (c : Dev nD)

/-- Layer 0's output array: the first layer of the launch arrays. -/
theorem out0 : (dat0 (F := Ideal) (V1 m ρ) c).arrAt 6 cfg0.N
    = Cert.Gin.layerPos (R := 50000) (K := 128) (H := 128) (N := 128) (m ((c : Thread nD τ).loc main_arg0))
        (Walk.agg (m ((c : Thread nD τ).loc main_arg0)) (m ((c : Thread nD τ).loc main_arg1)))
        (m ((c : Thread nD τ).loc main_arg3)) (Walk.row128 (m ((c : Thread nD τ).loc main_arg4)))
        (m ((c : Thread nD τ).loc main_arg5)) (Walk.row128 (m ((c : Thread nD τ).loc main_arg6))) := by
  rw [RegionValue.final0, Walk.entry0_x, Walk.entry0_agg, Walk.entry0_w1, Walk.entry0_b1, Walk.entry0_w2, Walk.entry0_b2]

theorem out1 : (dat1 (F := Ideal) (V3 m ρ) c).arrAt 6 cfg1.N
    = Cert.Gin.layerPos (R := 50000) (K := 128) (H := 128) (N := 128) ((dat0 (F := Ideal) (V1 m ρ) c).arrAt 6 cfg0.N)
        (Walk.agg ((dat0 (F := Ideal) (V1 m ρ) c).arrAt 6 cfg0.N) (m ((c : Thread nD τ).loc main_arg1)))
        (m ((c : Thread nD τ).loc main_arg7)) (Walk.row128 (m ((c : Thread nD τ).loc main_arg8)))
        (m ((c : Thread nD τ).loc main_arg9)) (Walk.row128 (m ((c : Thread nD τ).loc main_arg10))) := by
  rw [RegionValue.final1, Walk.entry1_x, Walk.entry1_agg, Walk.entry1_w1, Walk.entry1_b1, Walk.entry1_w2, Walk.entry1_b2]

theorem out2 : (dat2 (F := Ideal) (V5 m ρ) c).arrAt 6 cfg2.N
    = Cert.Gin.layer (R := 50000) (K := 128) (H := 64) (N := 64) ((dat1 (F := Ideal) (V3 m ρ) c).arrAt 6 cfg1.N)
        (Walk.agg ((dat1 (F := Ideal) (V3 m ρ) c).arrAt 6 cfg1.N) (m ((c : Thread nD τ).loc main_arg1)))
        (m ((c : Thread nD τ).loc main_arg11)) (Walk.row64 (m ((c : Thread nD τ).loc main_arg12)))
        (m ((c : Thread nD τ).loc main_arg13)) (Walk.row64 (m ((c : Thread nD τ).loc main_arg14))) := by
  rw [RegionValue.final2, Walk.entry2_x, Walk.entry2_agg, Walk.entry2_w1, Walk.entry2_b1, Walk.entry2_w2, Walk.entry2_b2]

/-- The result buffer at the last boundary is the network of the launch arrays. -/
theorem value : W7 m ρ c (Proc.devRef .tc main_v45)
    = Cert.ReferenceIdeal.RefValue.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [Walk.result, out2, out1, out0, agg_eq, pool_eq, row128_eq, row64_eq]
  rfl

end Cert.KernelIdeal.Bridge

end
-- ==== Proof.lean ====
/-
  The certificate of a three-layer graph network: a kernel that runs each layer's two dense layers block by block of
  5000 node rows in three pipelined regions, against a reference that runs them on whole arrays.

  On the extended reals both programs compute, layer by layer,

      out[p, q] = Σ_h max (Σ_k (x[p, k] + agg[p, k]) · w1[k, h] + b1[h]) 0 · w2[h, q] + b2[q]

  (the first two layers rectified once more), where `agg` — every edge adding its source node's row into its
  destination node's row — and the final pooling of node rows into graph rows are the same host operations in both.
  A change of float format is the identity on the extended reals, the matrix unit's product into a zero accumulator
  and the host's `dot_general` are the same sums, and a row of a layer depends only on the same row of its inputs, so
  the blocked computation and the whole-array computation are one function of the arguments.  No law of the extended
  reals beyond this reading is needed, and the finiteness of the inputs is never used.

  The three frames are the generated ones (the reference's is its generated run with the result dropped); the
  idealization rewrote nothing, so `preserves` is trivial.
-/
import proofs.«106106_j90744069030484_1_alg».proof.Defs
import proofs.«106106_j90744069030484_1_alg».proof.Proof.Gen.Kernel
import proofs.«106106_j90744069030484_1_alg».proof.Proof.Gen.Kernel.Skeleton
import proofs.«106106_j90744069030484_1_alg».proof.Proof.Gen.Kernel.Launch
import proofs.«106106_j90744069030484_1_alg».proof.Proof.Gen.Kernel.Points
import proofs.«106106_j90744069030484_1_alg».proof.Proof.Gen.Kernel.Frame
import proofs.«106106_j90744069030484_1_alg».proof.Proof.Gen.KernelIdeal
import proofs.«106106_j90744069030484_1_alg».proof.Proof.Gen.KernelIdeal.Skeleton
import proofs.«106106_j90744069030484_1_alg».proof.Proof.Gen.KernelIdeal.Launch
import proofs.«106106_j90744069030484_1_alg».proof.Proof.Gen.KernelIdeal.Points
import proofs.«106106_j90744069030484_1_alg».proof.Proof.Gen.KernelIdeal.Frame
import proofs.«106106_j90744069030484_1_alg».proof.Proof.Gen.ReferenceIdeal
import proofs.«106106_j90744069030484_1_alg».proof.Proof.Gen.Pre_finite_inputs
import proofs.«106106_j90744069030484_1_alg».proof.Proof.Gen.ReferenceIdeal.Run
import proofs.«106106_j90744069030484_1_alg».proof.Proof.Gen.ReferenceIdeal.Read
import proofs.«106106_j90744069030484_1_alg».proof.Proof.KernelRun
import proofs.«106106_j90744069030484_1_alg».proof.Proof.RefValue
import proofs.«106106_j90744069030484_1_alg».proof.Proof.Bridge
import Idealize.ShloMosaic.Adequacy
import Idealize.ShloMosaic.Init

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- Both programs end with the network of the shared arguments in their result buffers. -/
theorem algebraic : Cert.algebraic_KernelIdeal_ReferenceIdeal := by
  intro m ρ m' ρ' _ hagree
  refine ⟨fun c => Cert.ReferenceIdeal.RefValue.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Bridge.value m ρ c), (h c).2⟩)
      (Cert.KernelIdeal.Named.run_named (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11, a12, a13, a14⟩ := hagree c
    rw [(h c).1, Cert.ReferenceIdeal.Read.val_main_v73_eq, Cert.ReferenceIdeal.RefValue.result_eq,
      a0, a1, a2, a3, a4, a5, a6, a7, a8, a9, a10, a11, a12, a13, a14]

end Cert.Proof.Claims

namespace Cert.Proof
theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩
end Cert.Proof

end
